-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v124)) (v1 : (c : Dev Cert.KernelIdeal.nD) → Buf (Elt Ideal) ((c.tc : Thread Cert.KernelIdeal.nD Cert.KernelIdeal.τ).loc Cert.KernelIdeal.main_v131)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_v131) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v117) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S500000x3 : Shape := ⟨2, ![500000, 3]⟩
abbrev S100000x128 : Shape := ⟨2, ![100000, 128]⟩
abbrev S500000x2 : Shape := ⟨2, ![500000, 2]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : IVec S10000 32) (main_arg1 : IVec S10000 32) (main_arg2 : IVec S500000x3 32) (main_arg3 : IVec S500000x3 32) (main_arg4 : FVec F S100000x128 .f32) (main_arg5 : FVec F S100000x128 .f32) (main_arg6 : IVec S500000x2 32) (main_arg7 : IVec S500000x2 32) (main_arg8 : FVec F S128x128 .f32) (main_arg9 : FVec F S128x128 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000 : Shape := ⟨1, ![10000]⟩
abbrev S500000x3 : Shape := ⟨2, ![500000, 3]⟩
abbrev S100000x128 : Shape := ⟨2, ![100000, 128]⟩
abbrev S500000x2 : Shape := ⟨2, ![500000, 2]⟩
abbrev S128x128 : Shape := ⟨2, ![128, 128]⟩
abbrev S100000 : Shape := ⟨1, ![100000]⟩
abbrev S500000x1 : Shape := ⟨2, ![500000, 1]⟩
abbrev S500000 : Shape := ⟨1, ![500000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S10000x128 : Shape := ⟨2, ![10000, 128]⟩
abbrev S10000x1 : Shape := ⟨2, ![10000, 1]⟩

abbrev nBuf : Space → Nat
  | .hbm => 170
  | .vmem => 28
  | .smem => 0
  | _ => 0

abbrev hbmTy0_0 (i : Nat) : BufTy := match i % 128 with
  | 0 => ⟨S10000, .i32⟩
  | 1 => ⟨S10000, .i32⟩
  | 2 => ⟨S500000x3, .i32⟩
  | 3 => ⟨S500000x3, .i32⟩
  | 4 => ⟨S100000x128, .f32⟩
  | 5 => ⟨S100000x128, .f32⟩
  | 6 => ⟨S500000x2, .i32⟩
  | 7 => ⟨S500000x2, .i32⟩
  | 8 => ⟨S128x128, .f32⟩
  | 9 => ⟨S128x128, .f32⟩
  | 10 => ⟨S100000, .i32⟩
  | 11 => ⟨S500000x1, .i32⟩
  | 12 => ⟨S500000, .i32⟩
  | 13 => ⟨S500000x1, .i32⟩
  | 14 => ⟨S500000, .i32⟩
  | 15 => ⟨S1100000, .i32⟩
  | 16 => ⟨S500000x1, .i32⟩
  | 17 => ⟨S500000, .i32⟩
  | 18 => ⟨S500000x1, .i32⟩
  | 19 => ⟨S500000, .i32⟩
  | 20 => ⟨S1100000, .i32⟩
  | 21 => ⟨S_, .f32⟩
  | 22 => ⟨S1100000, .f32⟩
  | 23 => ⟨S_, .f32⟩
  | 24 => ⟨S100000, .f32⟩
  | 25 => ⟨S1100000x1, .i32⟩
  | 26 => ⟨S100000, .f32⟩
  | 27 => ⟨S_, .i32⟩
  | 28 => ⟨S1100000, .i32⟩
  | 29 => ⟨S1100000, .i1⟩
  | 30 => ⟨S_, .i32⟩
  | 31 => ⟨S1100000, .i32⟩
  | 32 => ⟨S1100000, .i32⟩
  | 33 => ⟨S1100000, .i32⟩
  | 34 => ⟨S1100000x1, .i32⟩
  | 35 => ⟨S1100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S1100000, .f32⟩
  | 46 => ⟨S1100000, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000x128, .f32⟩
  | 56 => ⟨S1100000x1, .f32⟩
  | 57 => ⟨S1100000x128, .f32⟩
  | 58 => ⟨S1100000x128, .f32⟩
  | 59 => ⟨S_, .f32⟩
  | 60 => ⟨S100000x128, .f32⟩
  | 61 => ⟨S1100000x1, .i32⟩
  | 62 => ⟨S100000x128, .f32⟩
  | 63 => ⟨S100000x128, .f32⟩
  | 64 => ⟨S_, .i32⟩
  | 65 => ⟨S1100000, .i32⟩
  | 66 => ⟨S1100000, .i1⟩
  | 67 => ⟨S_, .i32⟩
  | 68 => ⟨S1100000, .i32⟩
  | 69 => ⟨S1100000, .i32⟩
  | 70 => ⟨S1100000, .i32⟩
  | 71 => ⟨S1100000x1, .i32⟩
  | 72 => ⟨S1100000x128, .f32⟩
  | 73 => ⟨S1100000x1, .f32⟩
  | 74 => ⟨S1100000x128, .f32⟩
  | 75 => ⟨S1100000x128, .f32⟩
  | 76 => ⟨S_, .f32⟩
  | 77 => ⟨S100000x128, .f32⟩
  | 78 => ⟨S1100000x1, .i32⟩
  | 79 => ⟨S100000x128, .f32⟩
  | 80 => ⟨S100000x128, .f32⟩
  | 81 => ⟨S100000, .i32⟩
  | 82 => ⟨S500000x1, .i32⟩
  | 83 => ⟨S500000, .i32⟩
  | 84 => ⟨S500000x1, .i32⟩
  | 85 => ⟨S500000, .i32⟩
  | 86 => ⟨S1100000, .i32⟩
  | 87 => ⟨S500000x1, .i32⟩
  | 88 => ⟨S500000, .i32⟩
  | 89 => ⟨S500000x1, .i32⟩
  | 90 => ⟨S500000, .i32⟩
  | 91 => ⟨S1100000, .i32⟩
  | 92 => ⟨S_, .f32⟩
  | 93 => ⟨S1100000, .f32⟩
  | 94 => ⟨S_, .f32⟩
  | 95 => ⟨S100000, .f32⟩
  | 96 => ⟨S1100000x1, .i32⟩
  | 97 => ⟨S100000, .f32⟩
  | 98 => ⟨S_, .i32⟩
  | 99 => ⟨S1100000, .i32⟩
  | 100 => ⟨S1100000, .i1⟩
  | 101 => ⟨S_, .i32⟩
  | 102 => ⟨S1100000, .i32⟩
  | 103 => ⟨S1100000, .i32⟩
  | 104 => ⟨S1100000, .i32⟩
  | 105 => ⟨S1100000x1, .i32⟩
  | 106 => ⟨S1100000, .f32⟩
  | 107 => ⟨S_, .i32⟩
  | 108 => ⟨S1100000, .i32⟩
  | 109 => ⟨S1100000, .i1⟩
  | 110 => ⟨S_, .i32⟩
  | 111 => ⟨S1100000, .i32⟩
  | 112 => ⟨S1100000, .i32⟩
  | 113 => ⟨S1100000, .i32⟩
  | 114 => ⟨S1100000x1, .i32⟩
  | 115 => ⟨S1100000, .f32⟩
  | 116 => ⟨S1100000, .f32⟩
  | 117 => ⟨S1100000, .f32⟩
  | 118 => ⟨S_, .i32⟩
  | 119 => ⟨S1100000, .i32⟩
  | 120 => ⟨S1100000, .i1⟩
  | 121 => ⟨S_, .i32⟩
  | 122 => ⟨S1100000, .i32⟩
  | 123 => ⟨S1100000, .i32⟩
  | 124 => ⟨S1100000, .i32⟩
  | 125 => ⟨S1100000x1, .i32⟩
  | 126 => ⟨S1100000x128, .f32⟩
  | 127 => ⟨S1100000x1, .f32⟩
  | _ => ⟨S10000, .i32⟩

abbrev hbmTy0_1 (i : Nat) : BufTy := match i % 128 with
  | 0 => ⟨S1100000x128, .f32⟩
  | 1 => ⟨S1100000x128, .f32⟩
  | 2 => ⟨S_, .f32⟩
  | 3 => ⟨S100000x128, .f32⟩
  | 4 => ⟨S1100000x1, .i32⟩
  | 5 => ⟨S100000x128, .f32⟩
  | 6 => ⟨S100000x128, .f32⟩
  | 7 => ⟨S_, .i32⟩
  | 8 => ⟨S1100000, .i32⟩
  | 9 => ⟨S1100000, .i1⟩
  | 10 => ⟨S_, .i32⟩
  | 11 => ⟨S1100000, .i32⟩
  | 12 => ⟨S1100000, .i32⟩
  | 13 => ⟨S1100000, .i32⟩
  | 14 => ⟨S1100000x1, .i32⟩
  | 15 => ⟨S1100000x128, .f32⟩
  | 16 => ⟨S1100000x1, .f32⟩
  | 17 => ⟨S1100000x128, .f32⟩
  | 18 => ⟨S1100000x128, .f32⟩
  | 19 => ⟨S_, .f32⟩
  | 20 => ⟨S100000x128, .f32⟩
  | 21 => ⟨S1100000x1, .i32⟩
  | 22 => ⟨S100000x128, .f32⟩
  | 23 => ⟨S100000x128, .f32⟩
  | 24 => ⟨S_, .i32⟩
  | 25 => ⟨S10000, .i32⟩
  | 26 => ⟨S10000, .i1⟩
  | 27 => ⟨S_, .i32⟩
  | 28 => ⟨S10000, .i32⟩
  | 29 => ⟨S10000, .i32⟩
  | 30 => ⟨S10000, .i32⟩
  | 31 => ⟨S10000x1, .i32⟩
  | 32 => ⟨S10000x128, .f32⟩
  | 33 => ⟨S_, .i32⟩
  | 34 => ⟨S10000, .i32⟩
  | 35 => ⟨S10000, .i1⟩
  | 36 => ⟨S_, .i32⟩
  | 37 => ⟨S10000, .i32⟩
  | 38 => ⟨S10000, .i32⟩
  | 39 => ⟨S10000, .i32⟩
  | 40 => ⟨S10000x1, .i32⟩
  | 41 => ⟨S10000x128, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S128x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S128x128, .f32⟩
  | .local _ .vmem, ⟨26, _⟩ => ⟨S10000x128, .f32⟩
  | .local _ .vmem, ⟨27, _⟩ => ⟨S10000x128, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_12 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_14 : Ref sig .tc := ⟨.hbm, 107, rfl⟩
abbrev main_v81 : Ref sig .tc := ⟨.hbm, 108, rfl⟩
abbrev main_v82 : Ref sig .tc := ⟨.hbm, 109, rfl⟩
abbrev main_c_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_16 : Ref sig .tc := ⟨.hbm, 118, rfl⟩
abbrev main_v90 : Ref sig .tc := ⟨.hbm, 119, rfl⟩
abbrev main_v91 : Ref sig .tc := ⟨.hbm, 120, rfl⟩
abbrev main_c_17 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_18 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_19 : Ref sig .tc := ⟨.hbm, 135, rfl⟩
abbrev main_v104 : Ref sig .tc := ⟨.hbm, 136, rfl⟩
abbrev main_v105 : Ref sig .tc := ⟨.hbm, 137, rfl⟩
abbrev main_c_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_22 : Ref sig .tc := ⟨.hbm, 152, rfl⟩
abbrev main_v118 : Ref sig .tc := ⟨.hbm, 153, rfl⟩
abbrev main_v119 : Ref sig .tc := ⟨.hbm, 154, rfl⟩
abbrev main_c_23 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_24 : Ref sig .tc := ⟨.hbm, 161, rfl⟩
abbrev main_v125 : Ref sig .tc := ⟨.hbm, 162, rfl⟩
abbrev main_v126 : Ref sig .tc := ⟨.hbm, 163, rfl⟩
abbrev main_c_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  concatenates_S500000_S500000_S100000_S1100000_d0 : Shape.Concatenates [S500000, S500000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  bcast_S_S10000 : S_.BroadcastsInDim S10000 (![] : Fin 0 → Fin S10000.rank)
  bcast_S10000_S10000x1_0 : S10000.BroadcastsInDim S10000x1 (![0] : Fin 1 → Fin S10000x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S10000x128_S128x128_S10000x128_1_0_0_1_n_n_wf : DotDims.WF S10000x128 S128x128 S10000x128 [1] [0] [0] [1] [] []
  gather_S100000x128_S10000x1_S10000x128_1_0_n_n_0_1_1128_wf : GatherDims.WF S100000x128 S10000x1 S10000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf

abbrev win0_0 : Pipeline.Window sig grid0 :=
  Pipeline.Window.ofSpec (Memref.whole main_v43) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v102) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v116) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v117) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000 : Shape := ⟨1, ![10000]⟩
abbrev S500000x3 : Shape := ⟨2, ![500000, 3]⟩
abbrev S100000x128 : Shape := ⟨2, ![100000, 128]⟩
abbrev S500000x2 : Shape := ⟨2, ![500000, 2]⟩
abbrev S128x128 : Shape := ⟨2, ![128, 128]⟩
abbrev S100000 : Shape := ⟨1, ![100000]⟩
abbrev S500000x1 : Shape := ⟨2, ![500000, 1]⟩
abbrev S500000 : Shape := ⟨1, ![500000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S10000x1 : Shape := ⟨2, ![10000, 1]⟩
abbrev S10000x128 : Shape := ⟨2, ![10000, 128]⟩

abbrev nBuf : Space → Nat
  | .hbm => 186
  | .vmem => 0
  | .smem => 0
  | _ => 0

abbrev hbmTy0_0 (i : Nat) : BufTy := match i % 128 with
  | 0 => ⟨S10000, .i32⟩
  | 1 => ⟨S10000, .i32⟩
  | 2 => ⟨S500000x3, .i32⟩
  | 3 => ⟨S500000x3, .i32⟩
  | 4 => ⟨S100000x128, .f32⟩
  | 5 => ⟨S100000x128, .f32⟩
  | 6 => ⟨S500000x2, .i32⟩
  | 7 => ⟨S500000x2, .i32⟩
  | 8 => ⟨S128x128, .f32⟩
  | 9 => ⟨S128x128, .f32⟩
  | 10 => ⟨S100000, .i32⟩
  | 11 => ⟨S500000x1, .i32⟩
  | 12 => ⟨S500000, .i32⟩
  | 13 => ⟨S500000x1, .i32⟩
  | 14 => ⟨S500000, .i32⟩
  | 15 => ⟨S1100000, .i32⟩
  | 16 => ⟨S500000x1, .i32⟩
  | 17 => ⟨S500000, .i32⟩
  | 18 => ⟨S500000x1, .i32⟩
  | 19 => ⟨S500000, .i32⟩
  | 20 => ⟨S1100000, .i32⟩
  | 21 => ⟨S_, .f32⟩
  | 22 => ⟨S1100000, .f32⟩
  | 23 => ⟨S_, .f32⟩
  | 24 => ⟨S100000, .f32⟩
  | 25 => ⟨S1100000x1, .i32⟩
  | 26 => ⟨S100000, .f32⟩
  | 27 => ⟨S_, .i32⟩
  | 28 => ⟨S1100000, .i32⟩
  | 29 => ⟨S1100000, .i1⟩
  | 30 => ⟨S_, .i32⟩
  | 31 => ⟨S1100000, .i32⟩
  | 32 => ⟨S1100000, .i32⟩
  | 33 => ⟨S1100000, .i32⟩
  | 34 => ⟨S1100000x1, .i32⟩
  | 35 => ⟨S1100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S1100000, .f32⟩
  | 46 => ⟨S1100000, .f32⟩
  | 47 => ⟨S_, .i32⟩
  | 48 => ⟨S1100000, .i32⟩
  | 49 => ⟨S1100000, .i1⟩
  | 50 => ⟨S_, .i32⟩
  | 51 => ⟨S1100000, .i32⟩
  | 52 => ⟨S1100000, .i32⟩
  | 53 => ⟨S1100000, .i32⟩
  | 54 => ⟨S1100000x1, .i32⟩
  | 55 => ⟨S1100000x128, .f32⟩
  | 56 => ⟨S1100000x1, .f32⟩
  | 57 => ⟨S1100000x128, .f32⟩
  | 58 => ⟨S1100000x128, .f32⟩
  | 59 => ⟨S_, .f32⟩
  | 60 => ⟨S100000x128, .f32⟩
  | 61 => ⟨S1100000x1, .i32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .i32⟩
  | 69 => ⟨S1100000, .i32⟩
  | 70 => ⟨S1100000, .i1⟩
  | 71 => ⟨S_, .i32⟩
  | 72 => ⟨S1100000, .i32⟩
  | 73 => ⟨S1100000, .i32⟩
  | 74 => ⟨S1100000, .i32⟩
  | 75 => ⟨S1100000x1, .i32⟩
  | 76 => ⟨S1100000x128, .f32⟩
  | 77 => ⟨S1100000x1, .f32⟩
  | 78 => ⟨S1100000x128, .f32⟩
  | 79 => ⟨S1100000x128, .f32⟩
  | 80 => ⟨S_, .f32⟩
  | 81 => ⟨S100000x128, .f32⟩
  | 82 => ⟨S1100000x1, .i32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000, .i32⟩
  | 90 => ⟨S500000x1, .i32⟩
  | 91 => ⟨S500000, .i32⟩
  | 92 => ⟨S500000x1, .i32⟩
  | 93 => ⟨S500000, .i32⟩
  | 94 => ⟨S1100000, .i32⟩
  | 95 => ⟨S500000x1, .i32⟩
  | 96 => ⟨S500000, .i32⟩
  | 97 => ⟨S500000x1, .i32⟩
  | 98 => ⟨S500000, .i32⟩
  | 99 => ⟨S1100000, .i32⟩
  | 100 => ⟨S_, .f32⟩
  | 101 => ⟨S1100000, .f32⟩
  | 102 => ⟨S_, .f32⟩
  | 103 => ⟨S100000, .f32⟩
  | 104 => ⟨S1100000x1, .i32⟩
  | 105 => ⟨S100000, .f32⟩
  | 106 => ⟨S_, .i32⟩
  | 107 => ⟨S1100000, .i32⟩
  | 108 => ⟨S1100000, .i1⟩
  | 109 => ⟨S_, .i32⟩
  | 110 => ⟨S1100000, .i32⟩
  | 111 => ⟨S1100000, .i32⟩
  | 112 => ⟨S1100000, .i32⟩
  | 113 => ⟨S1100000x1, .i32⟩
  | 114 => ⟨S1100000, .f32⟩
  | 115 => ⟨S_, .i32⟩
  | 116 => ⟨S1100000, .i32⟩
  | 117 => ⟨S1100000, .i1⟩
  | 118 => ⟨S_, .i32⟩
  | 119 => ⟨S1100000, .i32⟩
  | 120 => ⟨S1100000, .i32⟩
  | 121 => ⟨S1100000, .i32⟩
  | 122 => ⟨S1100000x1, .i32⟩
  | 123 => ⟨S1100000, .f32⟩
  | 124 => ⟨S1100000, .f32⟩
  | 125 => ⟨S1100000, .f32⟩
  | 126 => ⟨S_, .i32⟩
  | 127 => ⟨S1100000, .i32⟩
  | _ => ⟨S10000, .i32⟩

abbrev hbmTy0_1 (i : Nat) : BufTy := match i % 128 with
  | 0 => ⟨S1100000, .i1⟩
  | 1 => ⟨S_, .i32⟩
  | 2 => ⟨S1100000, .i32⟩
  | 3 => ⟨S1100000, .i32⟩
  | 4 => ⟨S1100000, .i32⟩
  | 5 => ⟨S1100000x1, .i32⟩
  | 6 => ⟨S1100000x128, .f32⟩
  | 7 => ⟨S1100000x1, .f32⟩
  | 8 => ⟨S1100000x128, .f32⟩
  | 9 => ⟨S1100000x128, .f32⟩
  | 10 => ⟨S_, .f32⟩
  | 11 => ⟨S100000x128, .f32⟩
  | 12 => ⟨S1100000x1, .i32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .i32⟩
  | 20 => ⟨S1100000, .i32⟩
  | 21 => ⟨S1100000, .i1⟩
  | 22 => ⟨S_, .i32⟩
  | 23 => ⟨S1100000, .i32⟩
  | 24 => ⟨S1100000, .i32⟩
  | 25 => ⟨S1100000, .i32⟩
  | 26 => ⟨S1100000x1, .i32⟩
  | 27 => ⟨S1100000x128, .f32⟩
  | 28 => ⟨S1100000x1, .f32⟩
  | 29 => ⟨S1100000x128, .f32⟩
  | 30 => ⟨S1100000x128, .f32⟩
  | 31 => ⟨S_, .f32⟩
  | 32 => ⟨S100000x128, .f32⟩
  | 33 => ⟨S1100000x1, .i32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .i32⟩
  | 41 => ⟨S10000, .i32⟩
  | 42 => ⟨S10000, .i1⟩
  | 43 => ⟨S_, .i32⟩
  | 44 => ⟨S10000, .i32⟩
  | 45 => ⟨S10000, .i32⟩
  | 46 => ⟨S10000, .i32⟩
  | 47 => ⟨S10000x1, .i32⟩
  | 48 => ⟨S10000x128, .f32⟩
  | 49 => ⟨S_, .i32⟩
  | 50 => ⟨S10000, .i32⟩
  | 51 => ⟨S10000, .i1⟩
  | 52 => ⟨S_, .i32⟩
  | 53 => ⟨S10000, .i32⟩
  | 54 => ⟨S10000, .i32⟩
  | 55 => ⟨S10000, .i32⟩
  | 56 => ⟨S10000x1, .i32⟩
  | 57 => ⟨S10000x128, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_12 : Ref sig .tc := ⟨.hbm, 106, rfl⟩
abbrev main_v78 : Ref sig .tc := ⟨.hbm, 107, rfl⟩
abbrev main_v79 : Ref sig .tc := ⟨.hbm, 108, rfl⟩
abbrev main_c_13 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_14 : Ref sig .tc := ⟨.hbm, 115, rfl⟩
abbrev main_v85 : Ref sig .tc := ⟨.hbm, 116, rfl⟩
abbrev main_v86 : Ref sig .tc := ⟨.hbm, 117, rfl⟩
abbrev main_c_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_16 : Ref sig .tc := ⟨.hbm, 126, rfl⟩
abbrev main_v94 : Ref sig .tc := ⟨.hbm, 127, rfl⟩
abbrev main_v95 : Ref sig .tc := ⟨.hbm, 128, rfl⟩
abbrev main_c_17 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_18 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call2_cst : Ref sig .tc := ⟨.hbm, 144, rfl⟩
abbrev main_call2_v0 : Ref sig .tc := ⟨.hbm, 145, rfl⟩
abbrev main_v109 : Ref sig .tc := ⟨.hbm, 146, rfl⟩
abbrev main_c_19 : Ref sig .tc := ⟨.hbm, 147, rfl⟩
abbrev main_v110 : Ref sig .tc := ⟨.hbm, 148, rfl⟩
abbrev main_v111 : Ref sig .tc := ⟨.hbm, 149, rfl⟩
abbrev main_c_20 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_21 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_call3_cst : Ref sig .tc := ⟨.hbm, 165, rfl⟩
abbrev main_call3_v0 : Ref sig .tc := ⟨.hbm, 166, rfl⟩
abbrev main_v125 : Ref sig .tc := ⟨.hbm, 167, rfl⟩
abbrev main_c_22 : Ref sig .tc := ⟨.hbm, 168, rfl⟩
abbrev main_v126 : Ref sig .tc := ⟨.hbm, 169, rfl⟩
abbrev main_v127 : Ref sig .tc := ⟨.hbm, 170, rfl⟩
abbrev main_c_23 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_24 : Ref sig .tc := ⟨.hbm, 177, rfl⟩
abbrev main_v133 : Ref sig .tc := ⟨.hbm, 178, rfl⟩
abbrev main_v134 : Ref sig .tc := ⟨.hbm, 179, rfl⟩
abbrev main_c_25 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  concatenates_S500000_S500000_S100000_S1100000_d0 : Shape.Concatenates [S500000, S500000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S_S10000 : S_.BroadcastsInDim S10000 (![] : Fin 0 → Fin S10000.rank)
  bcast_S10000_S10000x1_0 : S10000.BroadcastsInDim S10000x1 (![0] : Fin 1 → Fin S10000x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x128_S100000x128_1_0_0_1_n_n_wf : DotDims.WF S100000x128 S128x128 S100000x128 [1] [0] [0] [1] [] []
  gather_S100000x128_S10000x1_S10000x128_1_0_n_n_0_1_1128_wf : GatherDims.WF S100000x128 S10000x1 S10000x128 [1] [0] [] [0] [] 1 ![1, 128]

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf

class Facts : Prop extends Facts₀ where

variable [Facts]
-- ==== Proof.Kernel.Body0.lean ====
/-
  Region 0 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.Kernel.Launch
import proofs.«126255_j4956392259829_1_alg».proof.Proof.Gen.Kernel.Skeleton
import proofs.«126255_j4956392259829_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the point fetches it or its
    index has not moved since the last fetch, for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the window's block at every point, whether the point fetches it or its
    index has not moved since the last fetch, for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the window's block at every point, whether the point fetches it or its
    index has not moved since the last fetch, for any proof data over the arrays `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [10000, 128] staging block, and the whole [128, 128] weight block: the rectangles the body loads and stores through. -/
abbrev rBlk0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- The output's staging buffer after the body, from the three input blocks: one store of the payload over the whole block. -/
def out0_3 (x0 : Vec F S10000x128 .f32) (x1 : Vec F S10000x128 .f32) (x2 : Vec F S128x128 .f32) : Vec F S10000x128 .f32 :=
  View.canon [⟨rBlk0, k0_pay1 (View.ld x0 rBlk0) (View.ld x1 rBlk0) (View.ld x2 rW0)⟩]

/-- The one store covers the output's staging buffer. -/
theorem cover0_3 (p0 : Vec F S10000x128 .f32) (y : S10000x128.Idx) :
    ∃ pc ∈ ([⟨rBlk0, p0⟩] : List (View.Piece (Elt F) S10000x128 .f32)), y ∈ pc.1.set :=
  View.cover_of_tiled [⟨rBlk0, p0⟩] S10000x128.size (by rfl) y

set_option maxHeartbeats 1000000 in
/-- The body on whole staging memrefs — the inputs' at contents `x0`, `x1`, `x2`, the output's at anything — runs to the
    continuation with the inputs' as they were and the output's at `out0_3 x0 x1 x2`. -/
theorem sound_kernel0 (c : Dev nD) (E : Set ℕ) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_layer_kernel i arg1 harg1 arg2 harg2 arg3 harg3 arg4 harg4) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each input's
    buffer at its block and the output's at `out0_3` of the input blocks; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  Region 1 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.Kernel.Launch
import proofs.«126255_j4956392259829_1_alg».proof.Proof.Gen.Kernel.Skeleton
import proofs.«126255_j4956392259829_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the point fetches it or its
    index has not moved since the last fetch, for any proof data over the arrays `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block at every point, whether the point fetches it or its
    index has not moved since the last fetch, for any proof data over the arrays `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block at every point, whether the point fetches it or its
    index has not moved since the last fetch, for any proof data over the arrays `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole [10000, 128] staging block, and the whole [128, 128] weight block: the rectangles the body loads and stores through. -/
abbrev rBlk1 : Rect S10000x128 := Rect.unit (s := S10000x128) ![0, 0] S10000x128.size inb_S10000x128_S10000x128_0_0
abbrev rW1 : Rect S128x128 := Rect.unit (s := S128x128) ![0, 0] S128x128.size inb_S128x128_S128x128_0_0

/-- The output's staging buffer after the body, from the three input blocks: one store of the payload over the whole block. -/
def out1_3 (x0 : Vec F S10000x128 .f32) (x1 : Vec F S10000x128 .f32) (x2 : Vec F S128x128 .f32) : Vec F S10000x128 .f32 :=
  View.canon [⟨rBlk1, k1_pay1 (View.ld x0 rBlk1) (View.ld x1 rBlk1) (View.ld x2 rW1)⟩]

/-- The one store covers the output's staging buffer. -/
theorem cover1_3 (p0 : Vec F S10000x128 .f32) (y : S10000x128.Idx) :
    ∃ pc ∈ ([⟨rBlk1, p0⟩] : List (View.Piece (Elt F) S10000x128 .f32)), y ∈ pc.1.set :=
  View.cover_of_tiled [⟨rBlk1, p0⟩] S10000x128.size (by rfl) y

set_option maxHeartbeats 1000000 in
/-- The body on whole staging memrefs — the inputs' at contents `x0`, `x1`, `x2`, the output's at anything — runs to the
    continuation with the inputs' as they were and the output's at `out1_3 x0 x1 x2`. -/
theorem sound_kernel1 (c : Dev nD) (E : Set ℕ) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gcn_layer_kernel i arg1 harg1 arg2 harg2 arg3 harg3 arg4 harg4) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Body2.lean ====
/-
  Region 2 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.Kernel.Launch
import proofs.«126255_j4956392259829_1_alg».proof.Proof.Gen.Kernel.Skeleton
import proofs.«126255_j4956392259829_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the point fetches it or its
    index has not moved since the last fetch, for any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the window's block at every point, whether the point fetches it or its
    index has not moved since the last fetch, for any proof data over the arrays `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds the window's block at every point, whether the point fetches it or its
    index has not moved since the last fetch, for any proof data over the arrays `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole [10000, 128] staging block, and the whole [128, 128] weight block: the rectangles the body loads and stores through. -/
abbrev rBlk2 : Rect S10000x128 := Rect.unit (s := S10000x128) ![0, 0] S10000x128.size inb_S10000x128_S10000x128_0_0
abbrev rW2 : Rect S128x128 := Rect.unit (s := S128x128) ![0, 0] S128x128.size inb_S128x128_S128x128_0_0

/-- The output's staging buffer after the body, from the three input blocks: one store of the payload over the whole block. -/
def out2_3 (x0 : Vec F S10000x128 .f32) (x1 : Vec F S10000x128 .f32) (x2 : Vec F S128x128 .f32) : Vec F S10000x128 .f32 :=
  View.canon [⟨rBlk2, k2_pay1 (View.ld x0 rBlk2) (View.ld x1 rBlk2) (View.ld x2 rW2)⟩]

/-- The one store covers the output's staging buffer. -/
theorem cover2_3 (p0 : Vec F S10000x128 .f32) (y : S10000x128.Idx) :
    ∃ pc ∈ ([⟨rBlk2, p0⟩] : List (View.Piece (Elt F) S10000x128 .f32)), y ∈ pc.1.set :=
  View.cover_of_tiled [⟨rBlk2, p0⟩] S10000x128.size (by rfl) y

set_option maxHeartbeats 1000000 in
/-- The body on whole staging memrefs — the inputs' at contents `x0`, `x1`, `x2`, the output's at anything — runs to the
    continuation with the inputs' as they were and the output's at `out2_3 x0 x1 x2`. -/
theorem sound_kernel2 (c : Dev nD) (E : Set ℕ) (i : grid2.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gcn_layer_kernel i arg1 harg1 arg2 harg2 arg3 harg3 arg4 harg4) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each input's
    buffer at its block and the output's at `out2_3` of the input blocks; the class invariant (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Body3.lean ====
/-
  Region 3 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.Kernel.Launch
import proofs.«126255_j4956392259829_1_alg».proof.Proof.Gen.Kernel.Skeleton
import proofs.«126255_j4956392259829_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the point fetches it or its
    index has not moved since the last fetch, for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point, whether the point fetches it or its
    index has not moved since the last fetch, for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point, whether the point fetches it or its
    index has not moved since the last fetch, for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole [10000, 128] staging block, and the whole [128, 128] weight block: the rectangles the body loads and stores through. -/
abbrev rBlk3 : Rect S10000x128 := Rect.unit (s := S10000x128) ![0, 0] S10000x128.size inb_S10000x128_S10000x128_0_0
abbrev rW3 : Rect S128x128 := Rect.unit (s := S128x128) ![0, 0] S128x128.size inb_S128x128_S128x128_0_0

/-- The output's staging buffer after the body, from the three input blocks: one store of the payload over the whole block. -/
def out3_3 (x0 : Vec F S10000x128 .f32) (x1 : Vec F S10000x128 .f32) (x2 : Vec F S128x128 .f32) : Vec F S10000x128 .f32 :=
  View.canon [⟨rBlk3, k3_pay1 (View.ld x0 rBlk3) (View.ld x1 rBlk3) (View.ld x2 rW3)⟩]

/-- The one store covers the output's staging buffer. -/
theorem cover3_3 (p0 : Vec F S10000x128 .f32) (y : S10000x128.Idx) :
    ∃ pc ∈ ([⟨rBlk3, p0⟩] : List (View.Piece (Elt F) S10000x128 .f32)), y ∈ pc.1.set :=
  View.cover_of_tiled [⟨rBlk3, p0⟩] S10000x128.size (by rfl) y

set_option maxHeartbeats 1000000 in
/-- The body on whole staging memrefs — the inputs' at contents `x0`, `x1`, `x2`, the output's at anything — runs to the
    continuation with the inputs' as they were and the output's at `out3_3 x0 x1 x2`. -/
theorem sound_kernel3 (c : Dev nD) (E : Set ℕ) (i : grid3.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__gcn_layer_kernel i arg1 harg1 arg2 harg2 arg3 harg3 arg4 harg4) K := by
  simp only [cc3__gcn_layer_kernel_eq_skeleton]; unfold cc3__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the class invariant (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Run.lean ====
/-
  The run of the whole program: five stretches of host operations around four launches of the dense-layer kernel.
  The buffer contents at each boundary are a fold from the launch memory: a host stretch applies its operations; a
  region leaves its output's array at the fold of its ten write-backs and every other buffer as entered. Each region
  is a segment over the thread state "every unscoped buffer at the boundary's contents, the generator register at some
  state, nothing owed". The run theorem: every weakly fair execution terminates, faulting nowhere, with every unscoped
  buffer at the last boundary's contents. The frame (each argument array as launched) and the results' values are read
  off that one statement.
-/
import proofs.«126255_j4956392259829_1_alg».proof.Proof.Kernel.Body0
import proofs.«126255_j4956392259829_1_alg».proof.Proof.Kernel.Body1
import proofs.«126255_j4956392259829_1_alg».proof.Proof.Kernel.Body2
import proofs.«126255_j4956392259829_1_alg».proof.Proof.Kernel.Body3
import proofs.«126255_j4956392259829_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev T1 : (c : Dev nD) → (b : Ref sig .tc) → Buf (Elt F) ((c : Thread nD τ).loc b) := fun c b => W1 m c b
theorem W1_keep (c : Dev nD) (r : Ref sig .tc) (h : r ∉ hostOps0_W) : W1 m c r = W0 m c r :=
  StableHlo.after_of_writes_sub hostOps0 _ hostOps0_writes h

/-- At region 0's exit: its arrays at what the pipeline leaves (the inputs as entered, the output's write-backs
    folded), every other buffer as entered. -/
def W2 (c : Dev nD) : Valuation τ sig (Elt F) :=
  Pipeline.withArrays spec0 c (W1 m c) fun w => (dat0 (T1 m) c).arrAt w cfg0.N
theorem W2_arr (c : Dev nD) (w : Fin cfg0.W) :
    W2 m c (Proc.devRef .tc (Pipeline.arrRef spec0 w)) = (dat0 (T1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev T2 : (c : Dev nD) → (b : Ref sig .tc) → Buf (Elt F) ((c : Thread nD τ).loc b) := fun c b => W2 m c b
theorem hF0 (c : Dev nD) (w : Fin cfg0.W) : (dat0 (T1 m) c).arrAt w cfg0.N = T2 m c (Pipeline.arrRef spec0 w) :=
  (W2_arr m c w).symm
theorem hrest0 (c : Dev nD) : ∀ b, b ∉ Finset.univ.image (Pipeline.arrRef spec0) → T2 m c b = T1 m c b :=
  fun b hb => W2_of_ne m c b fun w e => hb (Finset.mem_image.mpr ⟨w, Finset.mem_univ _, e⟩)
/-- Region 0 changes only its output's array `main_v44`: an input window's array ends as entered, any other buffer is untouched. -/
theorem W2_keep (c : Dev nD) (b : Ref sig .tc) (hb : b ≠ main_v44) : W2 m c (Proc.devRef .tc b) = W1 m c (Proc.devRef .tc b) := by
  by_cases h0 : Pipeline.arrRef spec0 0 = b
  · subst h0; exact (W2_arr m c 0).trans (((dat0 (T1 m) c).arrAt_in 0 rfl _).trans (A_eq0 (T1 m) c 0))
  by_cases h1 : Pipeline.arrRef spec0 1 = b
  · subst h1; exact (W2_arr m c 1).trans (((dat0 (T1 m) c).arrAt_in 1 rfl _).trans (A_eq0 (T1 m) c 1))
  by_cases h2 : Pipeline.arrRef spec0 2 = b
  · subst h2; exact (W2_arr m c 2).trans (((dat0 (T1 m) c).arrAt_in 2 rfl _).trans (A_eq0 (T1 m) c 2))
  exact W2_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W2_out (c : Dev nD) : W2 m c (Proc.devRef .tc main_v44) = (dat0 (T1 m) c).arrAt 3 cfg0.N := W2_arr m c 3
/-- After the host operations that follow region 0. -/
abbrev W3 : Dev nD → Valuation τ sig (Elt F) := fun c => StableHlo.after hostOps1 (W2 m c)
abbrev T3 : (c : Dev nD) → (b : Ref sig .tc) → Buf (Elt F) ((c : Thread nD τ).loc b) := fun c b => W3 m c b
theorem W3_keep (c : Dev nD) (r : Ref sig .tc) (h : r ∉ hostOps1_W) : W3 m c r = W2 m c r :=
  StableHlo.after_of_writes_sub hostOps1 _ hostOps1_writes h

/-- At region 1's exit: its arrays at what the pipeline leaves (the inputs as entered, the output's write-backs
    folded), every other buffer as entered. -/
def W4 (c : Dev nD) : Valuation τ sig (Elt F) :=
  Pipeline.withArrays spec1 c (W3 m c) fun w => (dat1 (T3 m) c).arrAt w cfg1.N
theorem W4_arr (c : Dev nD) (w : Fin cfg1.W) :
    W4 m c (Proc.devRef .tc (Pipeline.arrRef spec1 w)) = (dat1 (T3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev T4 : (c : Dev nD) → (b : Ref sig .tc) → Buf (Elt F) ((c : Thread nD τ).loc b) := fun c b => W4 m c b
theorem hF1 (c : Dev nD) (w : Fin cfg1.W) : (dat1 (T3 m) c).arrAt w cfg1.N = T4 m c (Pipeline.arrRef spec1 w) :=
  (W4_arr m c w).symm
theorem hrest1 (c : Dev nD) : ∀ b, b ∉ Finset.univ.image (Pipeline.arrRef spec1) → T4 m c b = T3 m c b :=
  fun b hb => W4_of_ne m c b fun w e => hb (Finset.mem_image.mpr ⟨w, Finset.mem_univ _, e⟩)
/-- Region 1 changes only its output's array `main_v58`: an input window's array ends as entered, any other buffer is untouched. -/
theorem W4_keep (c : Dev nD) (b : Ref sig .tc) (hb : b ≠ main_v58) : W4 m c (Proc.devRef .tc b) = W3 m c (Proc.devRef .tc b) := by
  by_cases h0 : Pipeline.arrRef spec1 0 = b
  · subst h0; exact (W4_arr m c 0).trans (((dat1 (T3 m) c).arrAt_in 0 rfl _).trans (A_eq1 (T3 m) c 0))
  by_cases h1 : Pipeline.arrRef spec1 1 = b
  · subst h1; exact (W4_arr m c 1).trans (((dat1 (T3 m) c).arrAt_in 1 rfl _).trans (A_eq1 (T3 m) c 1))
  by_cases h2 : Pipeline.arrRef spec1 2 = b
  · subst h2; exact (W4_arr m c 2).trans (((dat1 (T3 m) c).arrAt_in 2 rfl _).trans (A_eq1 (T3 m) c 2))
  exact W4_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W4_out (c : Dev nD) : W4 m c (Proc.devRef .tc main_v58) = (dat1 (T3 m) c).arrAt 3 cfg1.N := W4_arr m c 3
/-- After the host operations that follow region 1. -/
abbrev W5 : Dev nD → Valuation τ sig (Elt F) := fun c => StableHlo.after hostOps2 (W4 m c)
abbrev T5 : (c : Dev nD) → (b : Ref sig .tc) → Buf (Elt F) ((c : Thread nD τ).loc b) := fun c b => W5 m c b
theorem W5_keep (c : Dev nD) (r : Ref sig .tc) (h : r ∉ hostOps2_W) : W5 m c r = W4 m c r :=
  StableHlo.after_of_writes_sub hostOps2 _ hostOps2_writes h

/-- At region 2's exit: its arrays at what the pipeline leaves (the inputs as entered, the output's write-backs
    folded), every other buffer as entered. -/
def W6 (c : Dev nD) : Valuation τ sig (Elt F) :=
  Pipeline.withArrays spec2 c (W5 m c) fun w => (dat2 (T5 m) c).arrAt w cfg2.N
theorem W6_arr (c : Dev nD) (w : Fin cfg2.W) :
    W6 m c (Proc.devRef .tc (Pipeline.arrRef spec2 w)) = (dat2 (T5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev T6 : (c : Dev nD) → (b : Ref sig .tc) → Buf (Elt F) ((c : Thread nD τ).loc b) := fun c b => W6 m c b
theorem hF2 (c : Dev nD) (w : Fin cfg2.W) : (dat2 (T5 m) c).arrAt w cfg2.N = T6 m c (Pipeline.arrRef spec2 w) :=
  (W6_arr m c w).symm
theorem hrest2 (c : Dev nD) : ∀ b, b ∉ Finset.univ.image (Pipeline.arrRef spec2) → T6 m c b = T5 m c b :=
  fun b hb => W6_of_ne m c b fun w e => hb (Finset.mem_image.mpr ⟨w, Finset.mem_univ _, e⟩)
/-- Region 2 changes only its output's array `main_v103`: an input window's array ends as entered, any other buffer is untouched. -/
theorem W6_keep (c : Dev nD) (b : Ref sig .tc) (hb : b ≠ main_v103) : W6 m c (Proc.devRef .tc b) = W5 m c (Proc.devRef .tc b) := by
  by_cases h0 : Pipeline.arrRef spec2 0 = b
  · subst h0; exact (W6_arr m c 0).trans (((dat2 (T5 m) c).arrAt_in 0 rfl _).trans (A_eq2 (T5 m) c 0))
  by_cases h1 : Pipeline.arrRef spec2 1 = b
  · subst h1; exact (W6_arr m c 1).trans (((dat2 (T5 m) c).arrAt_in 1 rfl _).trans (A_eq2 (T5 m) c 1))
  by_cases h2 : Pipeline.arrRef spec2 2 = b
  · subst h2; exact (W6_arr m c 2).trans (((dat2 (T5 m) c).arrAt_in 2 rfl _).trans (A_eq2 (T5 m) c 2))
  exact W6_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W6_out (c : Dev nD) : W6 m c (Proc.devRef .tc main_v103) = (dat2 (T5 m) c).arrAt 3 cfg2.N := W6_arr m c 3
/-- After the host operations that follow region 2. -/
abbrev W7 : Dev nD → Valuation τ sig (Elt F) := fun c => StableHlo.after hostOps3 (W6 m c)
abbrev T7 : (c : Dev nD) → (b : Ref sig .tc) → Buf (Elt F) ((c : Thread nD τ).loc b) := fun c b => W7 m c b
theorem W7_keep (c : Dev nD) (r : Ref sig .tc) (h : r ∉ hostOps3_W) : W7 m c r = W6 m c r :=
  StableHlo.after_of_writes_sub hostOps3 _ hostOps3_writes h

/-- At region 3's exit: its arrays at what the pipeline leaves (the inputs as entered, the output's write-backs
    folded), every other buffer as entered. -/
def W8 (c : Dev nD) : Valuation τ sig (Elt F) :=
  Pipeline.withArrays spec3 c (W7 m c) fun w => (dat3 (T7 m) c).arrAt w cfg3.N
theorem W8_arr (c : Dev nD) (w : Fin cfg3.W) :
    W8 m c (Proc.devRef .tc (Pipeline.arrRef spec3 w)) = (dat3 (T7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev T8 : (c : Dev nD) → (b : Ref sig .tc) → Buf (Elt F) ((c : Thread nD τ).loc b) := fun c b => W8 m c b
theorem hF3 (c : Dev nD) (w : Fin cfg3.W) : (dat3 (T7 m) c).arrAt w cfg3.N = T8 m c (Pipeline.arrRef spec3 w) :=
  (W8_arr m c w).symm
theorem hrest3 (c : Dev nD) : ∀ b, b ∉ Finset.univ.image (Pipeline.arrRef spec3) → T8 m c b = T7 m c b :=
  fun b hb => W8_of_ne m c b fun w e => hb (Finset.mem_image.mpr ⟨w, Finset.mem_univ _, e⟩)
/-- Region 3 changes only its output's array `main_v117`: an input window's array ends as entered, any other buffer is untouched. -/
theorem W8_keep (c : Dev nD) (b : Ref sig .tc) (hb : b ≠ main_v117) : W8 m c (Proc.devRef .tc b) = W7 m c (Proc.devRef .tc b) := by
  by_cases h0 : Pipeline.arrRef spec3 0 = b
  · subst h0; exact (W8_arr m c 0).trans (((dat3 (T7 m) c).arrAt_in 0 rfl _).trans (A_eq3 (T7 m) c 0))
  by_cases h1 : Pipeline.arrRef spec3 1 = b
  · subst h1; exact (W8_arr m c 1).trans (((dat3 (T7 m) c).arrAt_in 1 rfl _).trans (A_eq3 (T7 m) c 1))
  by_cases h2 : Pipeline.arrRef spec3 2 = b
  · subst h2; exact (W8_arr m c 2).trans (((dat3 (T7 m) c).arrAt_in 2 rfl _).trans (A_eq3 (T7 m) c 2))
  exact W8_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W8_out (c : Dev nD) : W8 m c (Proc.devRef .tc main_v117) = (dat3 (T7 m) c).arrAt 3 cfg3.N := W8_arr m c 3
/-- After the host operations that follow region 3. -/
abbrev W9 : Dev nD → Valuation τ sig (Elt F) := fun c => StableHlo.after hostOps4 (W8 m c)
abbrev T9 : (c : Dev nD) → (b : Ref sig .tc) → Buf (Elt F) ((c : Thread nD τ).loc b) := fun c b => W9 m c b
theorem W9_keep (c : Dev nD) (r : Ref sig .tc) (h : r ∉ hostOps4_W) : W9 m c r = W8 m c r :=
  StableHlo.after_of_writes_sub hostOps4 _ hostOps4_writes h

/-- A buffer no host operation writes and no region outputs ends as launched. -/
theorem W9_untouched (c : Dev nD) (r : Ref sig .tc) (h0 : r ∉ hostOps0_W) (h1 : r ∉ hostOps1_W) (h2 : r ∉ hostOps2_W)
    (h3 : r ∉ hostOps3_W) (h4 : r ∉ hostOps4_W) (e0 : r ≠ main_v44) (e1 : r ≠ main_v58) (e2 : r ≠ main_v103) (e3 : r ≠ main_v117) :
    W9 m c r = m ((c : Thread nD τ).loc r) :=
  (W9_keep m c r h4).trans <| (W8_keep m c r e3).trans <| (W7_keep m c r h3).trans <| (W6_keep m c r e2).trans <|
    (W5_keep m c r h2).trans <| (W4_keep m c r e1).trans <| (W3_keep m c r h1).trans <| (W2_keep m c r e0).trans <|
    (W1_keep m c r h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split out
    of the unscoped buffers at entry and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers at entry and put back at the exit contents; the generator register goes into the class
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers at entry and put back at the exit contents; the generator register goes into the class
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers at entry and put back at the exit contents; the generator register goes into the class
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

set_option backward.isDefEq.respectTransparency.types false in
/-- Every weakly fair execution of the program from memory `m` with zero counters terminates, nothing faulting, and
    every unscoped buffer of every core ends at the last boundary's contents `W9`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W9 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := fun c => ⟨.rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c _ (mem_uc b hb))

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h c main_arg0 (by decide)).trans (W9_untouched m c main_arg0 (by decide) (by decide) (by decide) (by decide) (by decide) (by decide) (by decide) (by decide) (by decide)),
      (h c main_arg1 (by decide)).trans (W9_untouched m c main_arg1 (by decide) (by decide) (by decide) (by decide) (by decide) (by decide) (by decide) (by decide) (by decide)),
      (h c main_arg2 (by decide)).trans (W9_untouched m c main_arg2 (by decide) (by decide) (by decide) (by decide) (by decide) (by decide) (by decide) (by decide) (by decide)),
      (h c main_arg3 (by decide)).trans (W9_untouched m c main_arg3 (by decide) (by decide) (by decide) (by decide) (by decide) (by decide) (by decide) (by decide) (by decide)),
      (h c main_arg4 (by decide)).trans (W9_untouched m c main_arg4 (by decide) (by decide) (by decide) (by decide) (by decide) (by decide) (by decide) (by decide) (by decide)),
      (h c main_arg5 (by decide)).trans (W9_untouched m c main_arg5 (by decide) (by decide) (by decide) (by decide) (by decide) (by decide) (by decide) (by decide) (by decide)),
      (h c main_arg6 (by decide)).trans (W9_untouched m c main_arg6 (by decide) (by decide) (by decide) (by decide) (by decide) (by decide) (by decide) (by decide) (by decide)),
      (h c main_arg7 (by decide)).trans (W9_untouched m c main_arg7 (by decide) (by decide) (by decide) (by decide) (by decide) (by decide) (by decide) (by decide) (by decide)),
      (h c main_arg8 (by decide)).trans (W9_untouched m c main_arg8 (by decide) (by decide) (by decide) (by decide) (by decide) (by decide) (by decide) (by decide) (by decide)),
      (h c main_arg9 (by decide)).trans (W9_untouched m c main_arg9 (by decide) (by decide) (by decide) (by decide) (by decide) (by decide) (by decide) (by decide) (by decide))⟩)
    (run_all m ρ)

end Cert.Kernel.Hand

end
-- ==== Proof.KernelIdeal.Body0.lean ====
/-
  Region 0 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.KernelIdeal.Launch
import proofs.«126255_j4956392259829_1_alg».proof.Proof.Gen.KernelIdeal.Skeleton
import proofs.«126255_j4956392259829_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether the point fetches it or its
    index has not moved since the last fetch, for any proof data over the arrays `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds the window's block at every point, whether the point fetches it or its
    index has not moved since the last fetch, for any proof data over the arrays `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds the window's block at every point, whether the point fetches it or its
    index has not moved since the last fetch, for any proof data over the arrays `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [10000, 128] staging block, and the whole [128, 128] weight block: the rectangles the body loads and stores through. -/
abbrev rBlk0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- The output's staging buffer after the body, from the three input blocks: one store of the payload over the whole block. -/
def out0_3 (x0 : Vec F S10000x128 .f32) (x1 : Vec F S10000x128 .f32) (x2 : Vec F S128x128 .f32) : Vec F S10000x128 .f32 :=
  View.canon [⟨rBlk0, k0_pay1 (View.ld x0 rBlk0) (View.ld x1 rBlk0) (View.ld x2 rW0)⟩]

/-- The one store covers the output's staging buffer. -/
theorem cover0_3 (p0 : Vec F S10000x128 .f32) (y : S10000x128.Idx) :
    ∃ pc ∈ ([⟨rBlk0, p0⟩] : List (View.Piece (Elt F) S10000x128 .f32)), y ∈ pc.1.set :=
  View.cover_of_tiled [⟨rBlk0, p0⟩] S10000x128.size (by rfl) y

set_option maxHeartbeats 1000000 in
/-- The body on whole staging memrefs — the inputs' at contents `x0`, `x1`, `x2`, the output's at anything — runs to the
    continuation with the inputs' as they were and the output's at `out0_3 x0 x1 x2`. -/
theorem sound_kernel0 (c : Dev nD) (E : Set ℕ) (i : grid0.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_layer_kernel i arg1 harg1 arg2 harg2 arg3 harg3 arg4 harg4) K := by
  simp only [cc0__gcn_layer_kernel_eq_skeleton]; unfold cc0__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each input's
    buffer at its block and the output's at `out0_3` of the input blocks; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  Region 1 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.KernelIdeal.Launch
import proofs.«126255_j4956392259829_1_alg».proof.Proof.Gen.KernelIdeal.Skeleton
import proofs.«126255_j4956392259829_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the point fetches it or its
    index has not moved since the last fetch, for any proof data over the arrays `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block at every point, whether the point fetches it or its
    index has not moved since the last fetch, for any proof data over the arrays `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block at every point, whether the point fetches it or its
    index has not moved since the last fetch, for any proof data over the arrays `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole [10000, 128] staging block, and the whole [128, 128] weight block: the rectangles the body loads and stores through. -/
abbrev rBlk1 : Rect S10000x128 := Rect.unit (s := S10000x128) ![0, 0] S10000x128.size inb_S10000x128_S10000x128_0_0
abbrev rW1 : Rect S128x128 := Rect.unit (s := S128x128) ![0, 0] S128x128.size inb_S128x128_S128x128_0_0

/-- The output's staging buffer after the body, from the three input blocks: one store of the payload over the whole block. -/
def out1_3 (x0 : Vec F S10000x128 .f32) (x1 : Vec F S10000x128 .f32) (x2 : Vec F S128x128 .f32) : Vec F S10000x128 .f32 :=
  View.canon [⟨rBlk1, k1_pay1 (View.ld x0 rBlk1) (View.ld x1 rBlk1) (View.ld x2 rW1)⟩]

/-- The one store covers the output's staging buffer. -/
theorem cover1_3 (p0 : Vec F S10000x128 .f32) (y : S10000x128.Idx) :
    ∃ pc ∈ ([⟨rBlk1, p0⟩] : List (View.Piece (Elt F) S10000x128 .f32)), y ∈ pc.1.set :=
  View.cover_of_tiled [⟨rBlk1, p0⟩] S10000x128.size (by rfl) y

set_option maxHeartbeats 1000000 in
/-- The body on whole staging memrefs — the inputs' at contents `x0`, `x1`, `x2`, the output's at anything — runs to the
    continuation with the inputs' as they were and the output's at `out1_3 x0 x1 x2`. -/
theorem sound_kernel1 (c : Dev nD) (E : Set ℕ) (i : grid1.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gcn_layer_kernel i arg1 harg1 arg2 harg2 arg3 harg3 arg4 harg4) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each input's
    buffer at its block and the output's at `out1_3` of the input blocks; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Body2.lean ====
/-
  Region 2 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.KernelIdeal.Launch
import proofs.«126255_j4956392259829_1_alg».proof.Proof.Gen.KernelIdeal.Skeleton
import proofs.«126255_j4956392259829_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether the point fetches it or its
    index has not moved since the last fetch, for any proof data over the arrays `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds the window's block at every point, whether the point fetches it or its
    index has not moved since the last fetch, for any proof data over the arrays `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds the window's block at every point, whether the point fetches it or its
    index has not moved since the last fetch, for any proof data over the arrays `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole [10000, 128] staging block, and the whole [128, 128] weight block: the rectangles the body loads and stores through. -/
abbrev rBlk2 : Rect S10000x128 := Rect.unit (s := S10000x128) ![0, 0] S10000x128.size inb_S10000x128_S10000x128_0_0
abbrev rW2 : Rect S128x128 := Rect.unit (s := S128x128) ![0, 0] S128x128.size inb_S128x128_S128x128_0_0

/-- The output's staging buffer after the body, from the three input blocks: one store of the payload over the whole block. -/
def out2_3 (x0 : Vec F S10000x128 .f32) (x1 : Vec F S10000x128 .f32) (x2 : Vec F S128x128 .f32) : Vec F S10000x128 .f32 :=
  View.canon [⟨rBlk2, k2_pay1 (View.ld x0 rBlk2) (View.ld x1 rBlk2) (View.ld x2 rW2)⟩]

/-- The one store covers the output's staging buffer. -/
theorem cover2_3 (p0 : Vec F S10000x128 .f32) (y : S10000x128.Idx) :
    ∃ pc ∈ ([⟨rBlk2, p0⟩] : List (View.Piece (Elt F) S10000x128 .f32)), y ∈ pc.1.set :=
  View.cover_of_tiled [⟨rBlk2, p0⟩] S10000x128.size (by rfl) y

set_option maxHeartbeats 1000000 in
/-- The body on whole staging memrefs — the inputs' at contents `x0`, `x1`, `x2`, the output's at anything — runs to the
    continuation with the inputs' as they were and the output's at `out2_3 x0 x1 x2`. -/
theorem sound_kernel2 (c : Dev nD) (E : Set ℕ) (i : grid2.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gcn_layer_kernel i arg1 harg1 arg2 harg2 arg3 harg3 arg4 harg4) K := by
  simp only [cc2__gcn_layer_kernel_eq_skeleton]; unfold cc2__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each input's
    buffer at its block and the output's at `out2_3` of the input blocks; the class invariant (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Body3.lean ====
/-
  Region 3 of the program: one grid point of the dense GCN layer. The body reads the point's block of the
  aggregated features (window 0), the same rows of the layer's input (window 1) and the whole weight matrix
  (window 2), and stores max(agg · W + x, 0) over the whole block of the output (window 3). Stated at a
  parameter `V`, the buffer contents the region is entered with: what each window's block is at a point, what
  the body leaves in the output's staging buffer as a function of the three input blocks, the body's triple,
  the pipeline's proof data and the body obligation at every grid point.
-/
import proofs.«126255_j4956392259829_1_alg».proof.Proof.Gen.KernelIdeal.Launch
import proofs.«126255_j4956392259829_1_alg».proof.Proof.Gen.KernelIdeal.Skeleton
import proofs.«126255_j4956392259829_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the point fetches it or its
    index has not moved since the last fetch, for any proof data over the arrays `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point, whether the point fetches it or its
    index has not moved since the last fetch, for any proof data over the arrays `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point, whether the point fetches it or its
    index has not moved since the last fetch, for any proof data over the arrays `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole [10000, 128] staging block, and the whole [128, 128] weight block: the rectangles the body loads and stores through. -/
abbrev rBlk3 : Rect S10000x128 := Rect.unit (s := S10000x128) ![0, 0] S10000x128.size inb_S10000x128_S10000x128_0_0
abbrev rW3 : Rect S128x128 := Rect.unit (s := S128x128) ![0, 0] S128x128.size inb_S128x128_S128x128_0_0

/-- The output's staging buffer after the body, from the three input blocks: one store of the payload over the whole block. -/
def out3_3 (x0 : Vec F S10000x128 .f32) (x1 : Vec F S10000x128 .f32) (x2 : Vec F S128x128 .f32) : Vec F S10000x128 .f32 :=
  View.canon [⟨rBlk3, k3_pay1 (View.ld x0 rBlk3) (View.ld x1 rBlk3) (View.ld x2 rW3)⟩]

/-- The one store covers the output's staging buffer. -/
theorem cover3_3 (p0 : Vec F S10000x128 .f32) (y : S10000x128.Idx) :
    ∃ pc ∈ ([⟨rBlk3, p0⟩] : List (View.Piece (Elt F) S10000x128 .f32)), y ∈ pc.1.set :=
  View.cover_of_tiled [⟨rBlk3, p0⟩] S10000x128.size (by rfl) y

set_option maxHeartbeats 1000000 in
/-- The body on whole staging memrefs — the inputs' at contents `x0`, `x1`, `x2`, the output's at anything — runs to the
    continuation with the inputs' as they were and the output's at `out3_3 x0 x1 x2`. -/
theorem sound_kernel3 (c : Dev nD) (E : Set ℕ) (i : grid3.Coords) (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S10000x128 .f32) (harg4 : arg4.IsWhole)
    (x0 : Vec F S10000x128 .f32) (x1 : Vec F S10000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__gcn_layer_kernel i arg1 harg1 arg2 harg2 arg3 harg3 arg4 harg4) K := by
  simp only [cc3__gcn_layer_kernel_eq_skeleton]; unfold cc3__gcn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each input's
    buffer at its block and the output's at `out3_3` of the input blocks; the class invariant (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Run.lean ====
/-
  The run of the whole program: five stretches of host operations around four launches of the dense-layer kernel.
  The buffer contents at each boundary are a fold from the launch memory: a host stretch applies its operations; a
  region leaves its output's array at the fold of its ten write-backs and every other buffer as entered. Each region
  is a segment over the thread state "every unscoped buffer at the boundary's contents, the generator register at some
  state, nothing owed". The run theorem: every weakly fair execution terminates, faulting nowhere, with every unscoped
  buffer at the last boundary's contents. The frame (each argument array as launched) and the results' values are read
  off that one statement.
-/
import proofs.«126255_j4956392259829_1_alg».proof.Proof.KernelIdeal.Body0
import proofs.«126255_j4956392259829_1_alg».proof.Proof.KernelIdeal.Body1
import proofs.«126255_j4956392259829_1_alg».proof.Proof.KernelIdeal.Body2
import proofs.«126255_j4956392259829_1_alg».proof.Proof.KernelIdeal.Body3
import proofs.«126255_j4956392259829_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev T1 : (c : Dev nD) → (b : Ref sig .tc) → Buf (Elt F) ((c : Thread nD τ).loc b) := fun c b => W1 m c b
theorem W1_keep (c : Dev nD) (r : Ref sig .tc) (h : r ∉ hostOps0_W) : W1 m c r = W0 m c r :=
  StableHlo.after_of_writes_sub hostOps0 _ hostOps0_writes h

/-- At region 0's exit: its arrays at what the pipeline leaves (the inputs as entered, the output's write-backs
    folded), every other buffer as entered. -/
def W2 (c : Dev nD) : Valuation τ sig (Elt F) :=
  Pipeline.withArrays spec0 c (W1 m c) fun w => (dat0 (T1 m) c).arrAt w cfg0.N
theorem W2_arr (c : Dev nD) (w : Fin cfg0.W) :
    W2 m c (Proc.devRef .tc (Pipeline.arrRef spec0 w)) = (dat0 (T1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev T2 : (c : Dev nD) → (b : Ref sig .tc) → Buf (Elt F) ((c : Thread nD τ).loc b) := fun c b => W2 m c b
theorem hF0 (c : Dev nD) (w : Fin cfg0.W) : (dat0 (T1 m) c).arrAt w cfg0.N = T2 m c (Pipeline.arrRef spec0 w) :=
  (W2_arr m c w).symm
theorem hrest0 (c : Dev nD) : ∀ b, b ∉ Finset.univ.image (Pipeline.arrRef spec0) → T2 m c b = T1 m c b :=
  fun b hb => W2_of_ne m c b fun w e => hb (Finset.mem_image.mpr ⟨w, Finset.mem_univ _, e⟩)
/-- Region 0 changes only its output's array `main_v44`: an input window's array ends as entered, any other buffer is untouched. -/
theorem W2_keep (c : Dev nD) (b : Ref sig .tc) (hb : b ≠ main_v44) : W2 m c (Proc.devRef .tc b) = W1 m c (Proc.devRef .tc b) := by
  by_cases h0 : Pipeline.arrRef spec0 0 = b
  · subst h0; exact (W2_arr m c 0).trans (((dat0 (T1 m) c).arrAt_in 0 rfl _).trans (A_eq0 (T1 m) c 0))
  by_cases h1 : Pipeline.arrRef spec0 1 = b
  · subst h1; exact (W2_arr m c 1).trans (((dat0 (T1 m) c).arrAt_in 1 rfl _).trans (A_eq0 (T1 m) c 1))
  by_cases h2 : Pipeline.arrRef spec0 2 = b
  · subst h2; exact (W2_arr m c 2).trans (((dat0 (T1 m) c).arrAt_in 2 rfl _).trans (A_eq0 (T1 m) c 2))
  exact W2_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W2_out (c : Dev nD) : W2 m c (Proc.devRef .tc main_v44) = (dat0 (T1 m) c).arrAt 3 cfg0.N := W2_arr m c 3
/-- After the host operations that follow region 0. -/
abbrev W3 : Dev nD → Valuation τ sig (Elt F) := fun c => StableHlo.after hostOps1 (W2 m c)
abbrev T3 : (c : Dev nD) → (b : Ref sig .tc) → Buf (Elt F) ((c : Thread nD τ).loc b) := fun c b => W3 m c b
theorem W3_keep (c : Dev nD) (r : Ref sig .tc) (h : r ∉ hostOps1_W) : W3 m c r = W2 m c r :=
  StableHlo.after_of_writes_sub hostOps1 _ hostOps1_writes h

/-- At region 1's exit: its arrays at what the pipeline leaves (the inputs as entered, the output's write-backs
    folded), every other buffer as entered. -/
def W4 (c : Dev nD) : Valuation τ sig (Elt F) :=
  Pipeline.withArrays spec1 c (W3 m c) fun w => (dat1 (T3 m) c).arrAt w cfg1.N
theorem W4_arr (c : Dev nD) (w : Fin cfg1.W) :
    W4 m c (Proc.devRef .tc (Pipeline.arrRef spec1 w)) = (dat1 (T3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev T4 : (c : Dev nD) → (b : Ref sig .tc) → Buf (Elt F) ((c : Thread nD τ).loc b) := fun c b => W4 m c b
theorem hF1 (c : Dev nD) (w : Fin cfg1.W) : (dat1 (T3 m) c).arrAt w cfg1.N = T4 m c (Pipeline.arrRef spec1 w) :=
  (W4_arr m c w).symm
theorem hrest1 (c : Dev nD) : ∀ b, b ∉ Finset.univ.image (Pipeline.arrRef spec1) → T4 m c b = T3 m c b :=
  fun b hb => W4_of_ne m c b fun w e => hb (Finset.mem_image.mpr ⟨w, Finset.mem_univ _, e⟩)
/-- Region 1 changes only its output's array `main_v58`: an input window's array ends as entered, any other buffer is untouched. -/
theorem W4_keep (c : Dev nD) (b : Ref sig .tc) (hb : b ≠ main_v58) : W4 m c (Proc.devRef .tc b) = W3 m c (Proc.devRef .tc b) := by
  by_cases h0 : Pipeline.arrRef spec1 0 = b
  · subst h0; exact (W4_arr m c 0).trans (((dat1 (T3 m) c).arrAt_in 0 rfl _).trans (A_eq1 (T3 m) c 0))
  by_cases h1 : Pipeline.arrRef spec1 1 = b
  · subst h1; exact (W4_arr m c 1).trans (((dat1 (T3 m) c).arrAt_in 1 rfl _).trans (A_eq1 (T3 m) c 1))
  by_cases h2 : Pipeline.arrRef spec1 2 = b
  · subst h2; exact (W4_arr m c 2).trans (((dat1 (T3 m) c).arrAt_in 2 rfl _).trans (A_eq1 (T3 m) c 2))
  exact W4_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W4_out (c : Dev nD) : W4 m c (Proc.devRef .tc main_v58) = (dat1 (T3 m) c).arrAt 3 cfg1.N := W4_arr m c 3
/-- After the host operations that follow region 1. -/
abbrev W5 : Dev nD → Valuation τ sig (Elt F) := fun c => StableHlo.after hostOps2 (W4 m c)
abbrev T5 : (c : Dev nD) → (b : Ref sig .tc) → Buf (Elt F) ((c : Thread nD τ).loc b) := fun c b => W5 m c b
theorem W5_keep (c : Dev nD) (r : Ref sig .tc) (h : r ∉ hostOps2_W) : W5 m c r = W4 m c r :=
  StableHlo.after_of_writes_sub hostOps2 _ hostOps2_writes h

/-- At region 2's exit: its arrays at what the pipeline leaves (the inputs as entered, the output's write-backs
    folded), every other buffer as entered. -/
def W6 (c : Dev nD) : Valuation τ sig (Elt F) :=
  Pipeline.withArrays spec2 c (W5 m c) fun w => (dat2 (T5 m) c).arrAt w cfg2.N
theorem W6_arr (c : Dev nD) (w : Fin cfg2.W) :
    W6 m c (Proc.devRef .tc (Pipeline.arrRef spec2 w)) = (dat2 (T5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev T6 : (c : Dev nD) → (b : Ref sig .tc) → Buf (Elt F) ((c : Thread nD τ).loc b) := fun c b => W6 m c b
theorem hF2 (c : Dev nD) (w : Fin cfg2.W) : (dat2 (T5 m) c).arrAt w cfg2.N = T6 m c (Pipeline.arrRef spec2 w) :=
  (W6_arr m c w).symm
theorem hrest2 (c : Dev nD) : ∀ b, b ∉ Finset.univ.image (Pipeline.arrRef spec2) → T6 m c b = T5 m c b :=
  fun b hb => W6_of_ne m c b fun w e => hb (Finset.mem_image.mpr ⟨w, Finset.mem_univ _, e⟩)
/-- Region 2 changes only its output's array `main_v103`: an input window's array ends as entered, any other buffer is untouched. -/
theorem W6_keep (c : Dev nD) (b : Ref sig .tc) (hb : b ≠ main_v103) : W6 m c (Proc.devRef .tc b) = W5 m c (Proc.devRef .tc b) := by
  by_cases h0 : Pipeline.arrRef spec2 0 = b
  · subst h0; exact (W6_arr m c 0).trans (((dat2 (T5 m) c).arrAt_in 0 rfl _).trans (A_eq2 (T5 m) c 0))
  by_cases h1 : Pipeline.arrRef spec2 1 = b
  · subst h1; exact (W6_arr m c 1).trans (((dat2 (T5 m) c).arrAt_in 1 rfl _).trans (A_eq2 (T5 m) c 1))
  by_cases h2 : Pipeline.arrRef spec2 2 = b
  · subst h2; exact (W6_arr m c 2).trans (((dat2 (T5 m) c).arrAt_in 2 rfl _).trans (A_eq2 (T5 m) c 2))
  exact W6_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W6_out (c : Dev nD) : W6 m c (Proc.devRef .tc main_v103) = (dat2 (T5 m) c).arrAt 3 cfg2.N := W6_arr m c 3
/-- After the host operations that follow region 2. -/
abbrev W7 : Dev nD → Valuation τ sig (Elt F) := fun c => StableHlo.after hostOps3 (W6 m c)
abbrev T7 : (c : Dev nD) → (b : Ref sig .tc) → Buf (Elt F) ((c : Thread nD τ).loc b) := fun c b => W7 m c b
theorem W7_keep (c : Dev nD) (r : Ref sig .tc) (h : r ∉ hostOps3_W) : W7 m c r = W6 m c r :=
  StableHlo.after_of_writes_sub hostOps3 _ hostOps3_writes h

/-- At region 3's exit: its arrays at what the pipeline leaves (the inputs as entered, the output's write-backs
    folded), every other buffer as entered. -/
def W8 (c : Dev nD) : Valuation τ sig (Elt F) :=
  Pipeline.withArrays spec3 c (W7 m c) fun w => (dat3 (T7 m) c).arrAt w cfg3.N
theorem W8_arr (c : Dev nD) (w : Fin cfg3.W) :
    W8 m c (Proc.devRef .tc (Pipeline.arrRef spec3 w)) = (dat3 (T7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev T8 : (c : Dev nD) → (b : Ref sig .tc) → Buf (Elt F) ((c : Thread nD τ).loc b) := fun c b => W8 m c b
theorem hF3 (c : Dev nD) (w : Fin cfg3.W) : (dat3 (T7 m) c).arrAt w cfg3.N = T8 m c (Pipeline.arrRef spec3 w) :=
  (W8_arr m c w).symm
theorem hrest3 (c : Dev nD) : ∀ b, b ∉ Finset.univ.image (Pipeline.arrRef spec3) → T8 m c b = T7 m c b :=
  fun b hb => W8_of_ne m c b fun w e => hb (Finset.mem_image.mpr ⟨w, Finset.mem_univ _, e⟩)
/-- Region 3 changes only its output's array `main_v117`: an input window's array ends as entered, any other buffer is untouched. -/
theorem W8_keep (c : Dev nD) (b : Ref sig .tc) (hb : b ≠ main_v117) : W8 m c (Proc.devRef .tc b) = W7 m c (Proc.devRef .tc b) := by
  by_cases h0 : Pipeline.arrRef spec3 0 = b
  · subst h0; exact (W8_arr m c 0).trans (((dat3 (T7 m) c).arrAt_in 0 rfl _).trans (A_eq3 (T7 m) c 0))
  by_cases h1 : Pipeline.arrRef spec3 1 = b
  · subst h1; exact (W8_arr m c 1).trans (((dat3 (T7 m) c).arrAt_in 1 rfl _).trans (A_eq3 (T7 m) c 1))
  by_cases h2 : Pipeline.arrRef spec3 2 = b
  · subst h2; exact (W8_arr m c 2).trans (((dat3 (T7 m) c).arrAt_in 2 rfl _).trans (A_eq3 (T7 m) c 2))
  exact W8_of_ne m c b fun w => match w with
    | ⟨0, _⟩ => h0 | ⟨1, _⟩ => h1 | ⟨2, _⟩ => h2 | ⟨3, _⟩ => fun e => hb (e.symm.trans rfl)
/-- The region's output array after it: the fold of its ten write-backs. -/
theorem W8_out (c : Dev nD) : W8 m c (Proc.devRef .tc main_v117) = (dat3 (T7 m) c).arrAt 3 cfg3.N := W8_arr m c 3
/-- After the host operations that follow region 3. -/
abbrev W9 : Dev nD → Valuation τ sig (Elt F) := fun c => StableHlo.after hostOps4 (W8 m c)
abbrev T9 : (c : Dev nD) → (b : Ref sig .tc) → Buf (Elt F) ((c : Thread nD τ).loc b) := fun c b => W9 m c b
theorem W9_keep (c : Dev nD) (r : Ref sig .tc) (h : r ∉ hostOps4_W) : W9 m c r = W8 m c r :=
  StableHlo.after_of_writes_sub hostOps4 _ hostOps4_writes h

/-- A buffer no host operation writes and no region outputs ends as launched. -/
theorem W9_untouched (c : Dev nD) (r : Ref sig .tc) (h0 : r ∉ hostOps0_W) (h1 : r ∉ hostOps1_W) (h2 : r ∉ hostOps2_W)
    (h3 : r ∉ hostOps3_W) (h4 : r ∉ hostOps4_W) (e0 : r ≠ main_v44) (e1 : r ≠ main_v58) (e2 : r ≠ main_v103) (e3 : r ≠ main_v117) :
    W9 m c r = m ((c : Thread nD τ).loc r) :=
  (W9_keep m c r h4).trans <| (W8_keep m c r e3).trans <| (W7_keep m c r h3).trans <| (W6_keep m c r e2).trans <|
    (W5_keep m c r h2).trans <| (W4_keep m c r e1).trans <| (W3_keep m c r h1).trans <| (W2_keep m c r e0).trans <|
    (W1_keep m c r h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split out
    of the unscoped buffers at entry and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers at entry and put back at the exit contents; the generator register goes into the class
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers at entry and put back at the exit contents; the generator register goes into the class
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers at entry and put back at the exit contents; the generator register goes into the class
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

set_option backward.isDefEq.respectTransparency.types false in
/-- Every weakly fair execution of the program from memory `m` with zero counters terminates, nothing faulting, and
    every unscoped buffer of every core ends at the last boundary's contents `W9`. -/
theorem run_all (ρ : Dev nD → PrngReg) : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W9 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := fun c => ⟨.rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c _ (mem_uc b hb))

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h c main_arg0 (by decide)).trans (W9_untouched m c main_arg0 (by decide) (by decide) (by decide) (by decide) (by decide) (by decide) (by decide) (by decide) (by decide)),
      (h c main_arg1 (by decide)).trans (W9_untouched m c main_arg1 (by decide) (by decide) (by decide) (by decide) (by decide) (by decide) (by decide) (by decide) (by decide)),
      (h c main_arg2 (by decide)).trans (W9_untouched m c main_arg2 (by decide) (by decide) (by decide) (by decide) (by decide) (by decide) (by decide) (by decide) (by decide)),
      (h c main_arg3 (by decide)).trans (W9_untouched m c main_arg3 (by decide) (by decide) (by decide) (by decide) (by decide) (by decide) (by decide) (by decide) (by decide)),
      (h c main_arg4 (by decide)).trans (W9_untouched m c main_arg4 (by decide) (by decide) (by decide) (by decide) (by decide) (by decide) (by decide) (by decide) (by decide)),
      (h c main_arg5 (by decide)).trans (W9_untouched m c main_arg5 (by decide) (by decide) (by decide) (by decide) (by decide) (by decide) (by decide) (by decide) (by decide)),
      (h c main_arg6 (by decide)).trans (W9_untouched m c main_arg6 (by decide) (by decide) (by decide) (by decide) (by decide) (by decide) (by decide) (by decide) (by decide)),
      (h c main_arg7 (by decide)).trans (W9_untouched m c main_arg7 (by decide) (by decide) (by decide) (by decide) (by decide) (by decide) (by decide) (by decide) (by decide)),
      (h c main_arg8 (by decide)).trans (W9_untouched m c main_arg8 (by decide) (by decide) (by decide) (by decide) (by decide) (by decide) (by decide) (by decide) (by decide)),
      (h c main_arg9 (by decide)).trans (W9_untouched m c main_arg9 (by decide) (by decide) (by decide) (by decide) (by decide) (by decide) (by decide) (by decide) (by decide))⟩)
    (run_all m ρ)

end Cert.KernelIdeal.Hand

end
-- ==== Proof.Spec.lean ====
/-
  The computation both programs perform, as pure functions of the argument arrays, in the operations the reference is
  written in. From an edge list e of 500000 pairs: the 1100000 directed edges are e's first column, its second column and
  the self loops 0 … 99999 as sources, the second column, the first column and the self loops as destinations; an index
  below zero wraps by 100000; a node's degree is the number of directed edges arriving at it; an edge's weight is
  rsqrt(deg src · deg dst). One aggregation sends x to Σ over edges into a node of weight · x[src]; one dense layer sends
  (agg, x, W) to max(agg · W + x, 0). The network is two layers with the first layer's output as the second's input, and
  the seed rows are gathered from its output. The kernel's program differs from the reference only in computing each
  dense layer block by block in a launched kernel; everything else is this same chain, carried here as named functions
  and never opened.
-/
import proofs.«126255_j4956392259829_1_alg».proof.ReferenceIdeal
import proofs.«126255_j4956392259829_1_alg».proof.Proof.Gen.ReferenceIdeal
import Idealize.ShloMosaic.PureOps.Ideal
import Idealize.ShloMosaic.Lib.ValueIdx

noncomputable section

namespace Cert.Spec

open Idealize.ShloMosaic Cert.ReferenceIdeal Cert.ReferenceIdeal.Gen

/-- The directed edges' sources: first column, second column, self loops. -/
def srcOf (e : Vec Ideal S500000x2 .i32) : Vec Ideal S1100000 .i32 :=
  concatenate S1100000 0 [⟨S500000, shapeCast _ (extractStridedSlice S500000x1 ![0, 0] e slices_S500000x2_S500000x1_0_0) shapeCasts_S500000x1_S500000⟩,
    ⟨S500000, shapeCast _ (extractStridedSlice S500000x1 ![0, 1] e slices_S500000x2_S500000x1_0_1) shapeCasts_S500000x1_S500000⟩,
    ⟨S100000, iotaInDim S100000 32 0⟩] concatenates_S500000_S500000_S100000_S1100000_d0

/-- The directed edges' destinations: second column, first column, self loops. -/
def dstOf (e : Vec Ideal S500000x2 .i32) : Vec Ideal S1100000 .i32 :=
  concatenate S1100000 0 [⟨S500000, shapeCast _ (extractStridedSlice S500000x1 ![0, 1] e slices_S500000x2_S500000x1_0_1) shapeCasts_S500000x1_S500000⟩,
    ⟨S500000, shapeCast _ (extractStridedSlice S500000x1 ![0, 0] e slices_S500000x2_S500000x1_0_0) shapeCasts_S500000x1_S500000⟩,
    ⟨S100000, iotaInDim S100000 32 0⟩] concatenates_S500000_S500000_S100000_S1100000_d0

/-- A node index below zero wraps by the number of nodes; as a column of index vectors. -/
def idxCol (v : Vec Ideal S1100000 .i32) : Vec Ideal S1100000x1 .i32 :=
  broadcastInDim S1100000x1 ![0] bcast_S1100000_S1100000x1_0
    (select (cmpi .slt v (broadcastInDim S1100000 ![] bcast_S_S1100000 (constantI S_ 32 0#32)))
      (addi v (broadcastInDim S1100000 ![] bcast_S_S1100000 (constantI S_ 32 100000#32))) v)

/-- A node's degree: the number of directed edges arriving at it. -/
def degOf (dst : Vec Ideal S1100000 .i32) : FVec Ideal S100000 .f32 :=
  Host.scatterAdd (F := Ideal) scatter_S100000_S1100000x1_S1100000_n_0_0_1
    (broadcastInDim S100000 ![] bcast_S_S100000 (constant (F := Ideal) S_ .f32 0x00000000#32))
    (broadcastInDim S1100000x1 ![0] bcast_S1100000_S1100000x1_0 dst)
    (broadcastInDim S1100000 ![] bcast_S_S1100000 (constant (F := Ideal) S_ .f32 0x3F800000#32))

/-- An edge's weight: rsqrt(deg src · deg dst). -/
def normOf (src dst : Vec Ideal S1100000 .i32) : FVec Ideal S1100000 .f32 :=
  Host.rsqrt (F := Ideal) (mulf (Host.gather gather_S100000_S1100000x1_S1100000_n_0_n_n_0_1_1 (degOf dst) (idxCol src))
    (Host.gather gather_S100000_S1100000x1_S1100000_n_0_n_n_0_1_1 (degOf dst) (idxCol dst)))

/-- One aggregation: at a node, the sum over the edges into it of weight · x[src]. -/
def aggOf (x : FVec Ideal S100000x128 .f32) (src dst : Vec Ideal S1100000 .i32) (nrm : FVec Ideal S1100000 .f32) : FVec Ideal S100000x128 .f32 :=
  Host.scatterAdd (F := Ideal) scatter_S100000x128_S1100000x1_S1100000x128_1_0_0_1
    (broadcastInDim S100000x128 ![] bcast_S_S100000x128 (constant (F := Ideal) S_ .f32 0x00000000#32))
    (broadcastInDim S1100000x1 ![0] bcast_S1100000_S1100000x1_0 dst)
    (mulf (Host.gather gather_S100000x128_S1100000x1_S1100000x128_1_0_n_n_0_1_1128 x (idxCol src))
      (broadcastInDim S1100000x128 ![0, 1] bcast_S1100000x1_S1100000x128_0_1 (broadcastInDim S1100000x1 ![0] bcast_S1100000_S1100000x1_0 nrm)))

/-- One dense layer: max(agg · W + x, 0), the product the host's matrix product contracting the 128 features. -/
def layer (agg x : FVec Ideal S100000x128 .f32) (W : FVec Ideal S128x128 .f32) : FVec Ideal S100000x128 .f32 :=
  maximumf (addf (Host.dotGeneral (F := Ideal) dot_S100000x128_S128x128_S100000x128_1_0_0_1_n_n none agg W) x)
    (broadcastInDim S100000x128 ![] bcast_S_S100000x128 (constant (F := Ideal) S_ .f32 0x00000000#32))

/-- The first layer's output. -/
def hid1 (x : FVec Ideal S100000x128 .f32) (e : Vec Ideal S500000x2 .i32) (W1 : FVec Ideal S128x128 .f32) : FVec Ideal S100000x128 .f32 :=
  layer (aggOf x (srcOf e) (dstOf e) (normOf (srcOf e) (dstOf e))) x W1

/-- The network: two layers, the first's output the second's input. -/
def gcn (x : FVec Ideal S100000x128 .f32) (e : Vec Ideal S500000x2 .i32) (W1 W2 : FVec Ideal S128x128 .f32) : FVec Ideal S100000x128 .f32 :=
  layer (aggOf (hid1 x e W1) (srcOf e) (dstOf e) (normOf (srcOf e) (dstOf e))) (hid1 x e W1) W2

/-- The seed rows of a node table, a seed below zero wrapping by the number of nodes. -/
def seedOf (h : FVec Ideal S100000x128 .f32) (s : Vec Ideal S10000 .i32) : FVec Ideal S10000x128 .f32 :=
  Host.gather gather_S100000x128_S10000x1_S10000x128_1_0_n_n_0_1_1128 h
    (broadcastInDim S10000x1 ![0] bcast_S10000_S10000x1_0
      (select (cmpi .slt s (broadcastInDim S10000 ![] bcast_S_S10000 (constantI S_ 32 0#32)))
        (addi s (broadcastInDim S10000 ![] bcast_S_S10000 (constantI S_ 32 100000#32))) s))

/-- The offset of a whole-block rectangle, as the constant-zero function. -/
theorem hz2 : (![0, 0] : Fin 2 → Nat) = fun _ => 0 := funext fun a => by fin_cases a <;> rfl

end Cert.Spec

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibDotHost.lean ====
/-
  The host's matrix product read at an index. For the plain dimension numbers (rows × contraction times
  contraction × columns) a `stablehlo.dot_general`, at the ideal values, is at (a, b) the sum over the contracted
  coordinate `c` of the left operand at (a, c) times the right operand at (c, b) — the same sum a `tpu.matmul` into the
  zero accumulator is (LibMat), so a row block of the one is the matching rows of the other.
-/
import Idealize.ShloMosaic.PureOps.Ideal.Laws
import Idealize.ShloMosaic.Lib.ValueIdx
import Idealize.ShloMosaic.Lib.ValueLayout
import proofs.«126255_j4956392259829_1_alg».proof.Proof.LibMat

noncomputable section

open scoped BigOperators

namespace Cert.LibDotHost

open Idealize.ShloMosaic Idealize.ShloMosaic.ValueIdx Cert.LibMat

/-- A plain host matrix product at (a, b): the sum over the contracted coordinate. Generic in the three extents, the
    operands' formats, the precision and the witness of the dimension numbers' well-formedness. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (plainDims w) prec A B (ix2 a b) = ∑ c : Fin k, A (ix2 a c) * B (ix2 c b) := by
  show FloatOps.dotGeneral _ prec .single A B (ix2 a b) = _
  rw [Ideal.dotGeneral_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row block of a plain `tpu.matmul` into the zero accumulator is the matching rows of the host's product: if the
    block's left operand at (p, c) is the whole left operand at (a, c) and the right operands agree on column `q` / `b`,
    then the block's product at (p, q) is the whole product at (a, b). -/
theorem matmul_block_eq_dotGeneral {m m' k n n' : ℕ} {φ₁ φ₂ ψ₁ ψ₂ : FTy}
    (w : DotDims.WF ⟨2, ![m, k]⟩ ⟨2, ![k, n]⟩ ⟨2, ![m, n]⟩ [1] [0] [0] [1] [] [])
    (w' : DotDims.WF ⟨2, ![m', k]⟩ ⟨2, ![k, n']⟩ ⟨2, ![m', n']⟩ [1] [0] [0] [1] [] [])
    (prec prec' : Option ContractPrecision)
    (x0 : FVec Ideal ⟨2, ![m, k]⟩ φ₁) (x1 : FVec Ideal ⟨2, ![k, n]⟩ φ₂)
    (X : FVec Ideal ⟨2, ![m', k]⟩ ψ₁) (W : FVec Ideal ⟨2, ![k, n']⟩ ψ₂)
    (p : Fin m) (q : Fin n) (a : Fin m') (b : Fin n')
    (h0 : ∀ c : Fin k, x0 (ix2 p c) = X (ix2 a c)) (h1 : ∀ c : Fin k, x1 (ix2 c q) = W (ix2 c b)) :
    matmul (plainDims w) prec x0 x1 (constant ⟨2, ![m, n]⟩ .f32 0x00000000#32) (ix2 p q)
      = Host.dotGeneral (plainDims w') prec' X W (ix2 a b) :=
  (matmul_plain_apply w prec x0 x1 p q).trans
    ((Finset.sum_congr rfl fun c _ => by rw [h0 c, h1 c]).trans (dotGeneral_plain_apply w' prec' X W a b).symm)

end Cert.LibDotHost

end
-- ==== Proof.KernelIdeal.Layer0.lean ====
/-
  What region 0 leaves in its output array: the dense layer of the three arrays it reads, on the whole array.
  At grid point t the output's block is rows 10000·t … 10000·t + 9999; the aggregate's and the identity's blocks are
  the same rows of their arrays and the weight's block is the whole matrix, so the body's payload at (p, q) of the
  block is the layer at (10000·t + p, q): the block's matrix product is the matching rows of the whole product. The
  ten blocks tile the array.
-/
import proofs.«126255_j4956392259829_1_alg».proof.Proof.KernelIdeal.Body0
import proofs.«126255_j4956392259829_1_alg».proof.Proof.Spec
import proofs.«126255_j4956392259829_1_alg».proof.Proof.LibDotHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's payload at (p, q) of a block whose aggregate rows are rows `a` of `AGG`, whose identity entry is `X`'s
    at (a, q) and whose weight block is `W`: the layer of the whole arrays at (a, q). -/
theorem pay0_at (x0 x1 : FVec Ideal S10000x128 .f32) (x2 : FVec Ideal S128x128 .f32)
    (AGG X : FVec Ideal Cert.ReferenceIdeal.S100000x128 .f32) (W : FVec Ideal Cert.ReferenceIdeal.S128x128 .f32)
    (p : Fin 10000) (q : Fin 128) (a : Fin 100000)
    (h0 : ∀ k : Fin 128, x0 (ix2 p k) = AGG (ix2 a k)) (h1 : x1 (ix2 p q) = X (ix2 a q))
    (h2 : ∀ k : Fin 128, x2 (ix2 k q) = W (ix2 k q)) :
    k0_pay1 (F := Ideal) x0 x1 x2 (ix2 p q) = Cert.Spec.layer AGG X W (ix2 a q) := by
  have hm : matmul (F := Ideal) dot_S10000x128_S128x128_S10000x128_1_0_0_1_n_n none (shapeCast S10000x128 x0 shapeCasts_S10000x128_S10000x128) x2
        (constant S10000x128 .f32 0x00000000#32) (ix2 p q)
      = Host.dotGeneral (F := Ideal) Cert.ReferenceIdeal.dot_S100000x128_S128x128_S100000x128_1_0_0_1_n_n none AGG W (ix2 a q) := by
    rw [shapeCast_self]
    exact Cert.LibDotHost.matmul_block_eq_dotGeneral dot_S10000x128_S128x128_S10000x128_1_0_0_1_n_n.wf
      Cert.ReferenceIdeal.dot_S100000x128_S128x128_S100000x128_1_0_0_1_n_n.wf none none x0 x2 AGG W p q a q h0 h2
  unfold k0_pay1 Cert.Spec.layer
  show FloatOps.maximumf (FloatOps.addf (matmul (F := Ideal) dot_S10000x128_S128x128_S10000x128_1_0_0_1_n_n none (shapeCast S10000x128 x0 shapeCasts_S10000x128_S10000x128) x2
        (constant S10000x128 .f32 0x00000000#32) (ix2 p q)) (x1 (ix2 p q))) _ = _
  rw [hm, h1]
  rfl

/-- The printed index maps, decided over the grid: at point t the aggregate's, the identity's and the output's blocks are
    block row t, the weight's the one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the layer of the arrays the region reads. -/
theorem flushed0_eq (c : Dev nD) (t : Fin cfg0.N) :
    (dat0 (F := Ideal) V c).flushed 3 t = ((cfg0.win 3).blk t).view.read (Elt Ideal) (Cert.Spec.layer (V c main_v43) (V c main_arg4) (V c main_arg8)) := by
  show (cfg0.win 3).cut (grid0.coords t) ((dat0 (F := Ideal) V c).after 3 t) = _
  rw [after0_3]
  unfold out0_3
  rw [View.canon_unit_zero Cert.Spec.hz2]
  simp only [View.ld_unit_zero (S := S10000x128) Cert.Spec.hz2, View.ld_unit_zero (S := S128x128) Cert.Spec.hz2]
  obtain ⟨e00, e01, e10, e11, e20, e21, e30, e31⟩ := idx_facts0 t
  have ht : t.val < 10 := lt_of_lt_of_eq t.isLt N_0
  funext j
  obtain ⟨p, q, rfl⟩ : ∃ (p : Fin 10000) (q : Fin 128), j = ix2 p q := ⟨j 0, j 1, eq_ix2 j⟩
  have hp : p.val < 10000 := p.isLt
  refine (pay0_at (iblk0 V c 0 t) (iblk0 V c 1 t) (iblk0 V c 2 t) (V c main_v43) (V c main_arg4) (V c main_arg8) p q
    ⟨t.val * 10000 + p.val, by omega⟩ (fun k => ?_) ?_ (fun k => ?_)).trans ?_
  · show V c main_v43 (((cfg0.win 0).blk t).view.emb (ix2 p k)) = V c main_v43 (ix2 ⟨t.val * 10000 + p.val, by omega⟩ k)
    refine congrArg _ (funext fun ax => Fin.ext ?_)
    match ax with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg4 (((cfg0.win 1).blk t).view.emb (ix2 p q)) = V c main_arg4 (ix2 ⟨t.val * 10000 + p.val, by omega⟩ q)
    refine congrArg _ (funext fun ax => Fin.ext ?_)
    match ax with
    | ⟨0, _⟩ => show win0_1.index t (0 : Fin 2) * 10000 + 1 * p.val = t.val * 10000 + p.val; omega
    | ⟨1, _⟩ => show win0_1.index t (1 : Fin 2) * 128 + 1 * q.val = q.val; omega
  · show V c main_arg8 (((cfg0.win 2).blk t).view.emb (ix2 k q)) = V c main_arg8 (ix2 k q)
    refine congrArg _ (funext fun ax => Fin.ext ?_)
    match ax with
    | ⟨0, _⟩ => show win0_2.index t (0 : Fin 2) * 128 + 1 * k.val = k.val; omega
    | ⟨1, _⟩ => show win0_2.index t (1 : Fin 2) * 128 + 1 * q.val = q.val; omega
  · show Cert.Spec.layer (V c main_v43) (V c main_arg4) (V c main_arg8) (ix2 ⟨t.val * 10000 + p.val, by omega⟩ q)
      = Cert.Spec.layer (V c main_v43) (V c main_arg4) (V c main_arg8) (((cfg0.win 3).blk t).view.emb (ix2 p q))
    refine congrArg _ (funext fun ax => Fin.ext ?_)
    match ax with
    | ⟨0, _⟩ => show t.val * 10000 + p.val = win0_3.index t (0 : Fin 2) * 10000 + 1 * p.val; omega
    | ⟨1, _⟩ => show q.val = win0_3.index t (1 : Fin 2) * 128 + 1 * q.val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v44).slice (win0_3.rect t)).set ↔ _
  rw [View.set_slice_whole, Rect.mem_set_unit]
  exact Iff.rfl

/-- Every index of the output array is in some flushing point's block: row r is in block r / 10000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 10000 < cfg0.N := lt_of_lt_of_eq (by omega : (i 0).val / 10000 < 10) N_0.symm
  refine ⟨⟨(i 0).val / 10000, hN⟩, flush0_3 _, ?_⟩
  rw [mem_blk0]
  obtain ⟨e00, e01, e10, e11, e20, e21, e30, e31⟩ := idx_facts0 ⟨(i 0).val / 10000, hN⟩
  intro a
  match a with
  | ⟨0, _⟩ => show win0_3.index ⟨(i 0).val / 10000, hN⟩ (0 : Fin 2) * 10000 ≤ (i 0).val ∧ (i 0).val < win0_3.index ⟨(i 0).val / 10000, hN⟩ (0 : Fin 2) * 10000 + 10000
              rw [e30]; show (i 0).val / 10000 * 10000 ≤ (i 0).val ∧ (i 0).val < (i 0).val / 10000 * 10000 + 10000; omega
  | ⟨1, _⟩ => show win0_3.index ⟨(i 0).val / 10000, hN⟩ (1 : Fin 2) * 128 ≤ (i 1).val ∧ (i 1).val < win0_3.index ⟨(i 0).val / 10000, hN⟩ (1 : Fin 2) * 128 + 128
              rw [e31]; omega

/-- The output array after the region: the layer of the three arrays it reads. -/
theorem final0 (c : Dev nD) :
    (dat0 (F := Ideal) V c).arrAt 3 cfg0.N = Cert.Spec.layer (V c main_v43) (V c main_arg4) (V c main_arg8) :=
  (dat0 (F := Ideal) V c).arrAt_eq_of_cover 3 (Cert.Spec.layer (V c main_v43) (V c main_arg4) (V c main_arg8)) (fun t _ => flushed0_eq V c t) (cover0)

end Cert.KernelIdeal.Hand

end
-- ==== Proof.KernelIdeal.Layer1.lean ====
/-
  What region 1 leaves in its output array: the dense layer of the three arrays it reads, on the whole array.
  At grid point t the output's block is rows 10000·t … 10000·t + 9999; the aggregate's and the identity's blocks are
  the same rows of their arrays and the weight's block is the whole matrix, so the body's payload at (p, q) of the
  block is the layer at (10000·t + p, q): the block's matrix product is the matching rows of the whole product. The
  ten blocks tile the array.
-/
import proofs.«126255_j4956392259829_1_alg».proof.Proof.KernelIdeal.Body1
import proofs.«126255_j4956392259829_1_alg».proof.Proof.Spec
import proofs.«126255_j4956392259829_1_alg».proof.Proof.LibDotHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's payload at (p, q) of a block whose aggregate rows are rows `a` of `AGG`, whose identity entry is `X`'s
    at (a, q) and whose weight block is `W`: the layer of the whole arrays at (a, q). -/
theorem pay1_at (x0 x1 : FVec Ideal S10000x128 .f32) (x2 : FVec Ideal S128x128 .f32)
    (AGG X : FVec Ideal Cert.ReferenceIdeal.S100000x128 .f32) (W : FVec Ideal Cert.ReferenceIdeal.S128x128 .f32)
    (p : Fin 10000) (q : Fin 128) (a : Fin 100000)
    (h0 : ∀ k : Fin 128, x0 (ix2 p k) = AGG (ix2 a k)) (h1 : x1 (ix2 p q) = X (ix2 a q))
    (h2 : ∀ k : Fin 128, x2 (ix2 k q) = W (ix2 k q)) :
    k1_pay1 (F := Ideal) x0 x1 x2 (ix2 p q) = Cert.Spec.layer AGG X W (ix2 a q) := by
  have hm : matmul (F := Ideal) dot_S10000x128_S128x128_S10000x128_1_0_0_1_n_n none (shapeCast S10000x128 x0 shapeCasts_S10000x128_S10000x128) x2
        (constant S10000x128 .f32 0x00000000#32) (ix2 p q)
      = Host.dotGeneral (F := Ideal) Cert.ReferenceIdeal.dot_S100000x128_S128x128_S100000x128_1_0_0_1_n_n none AGG W (ix2 a q) := by
    rw [shapeCast_self]
    exact Cert.LibDotHost.matmul_block_eq_dotGeneral dot_S10000x128_S128x128_S10000x128_1_0_0_1_n_n.wf
      Cert.ReferenceIdeal.dot_S100000x128_S128x128_S100000x128_1_0_0_1_n_n.wf none none x0 x2 AGG W p q a q h0 h2
  unfold k1_pay1 Cert.Spec.layer
  show FloatOps.maximumf (FloatOps.addf (matmul (F := Ideal) dot_S10000x128_S128x128_S10000x128_1_0_0_1_n_n none (shapeCast S10000x128 x0 shapeCasts_S10000x128_S10000x128) x2
        (constant S10000x128 .f32 0x00000000#32) (ix2 p q)) (shapeCast S10000x128 x1 shapeCasts_S10000x128_S10000x128 (ix2 p q))) _ = _
  rw [hm, shapeCast_self, h1]
  rfl

/-- The printed index maps, decided over the grid: at point t the aggregate's, the identity's and the output's blocks are
    block row t, the weight's the one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the layer of the arrays the region reads. -/
theorem flushed1_eq (c : Dev nD) (t : Fin cfg1.N) :
    (dat1 (F := Ideal) V c).flushed 3 t = ((cfg1.win 3).blk t).view.read (Elt Ideal) (Cert.Spec.layer (V c main_v57) (V c main_v44) (V c main_arg9)) := by
  show (cfg1.win 3).cut (grid1.coords t) ((dat1 (F := Ideal) V c).after 3 t) = _
  rw [after1_3]
  unfold out1_3
  rw [View.canon_unit_zero Cert.Spec.hz2]
  simp only [View.ld_unit_zero (S := S10000x128) Cert.Spec.hz2, View.ld_unit_zero (S := S128x128) Cert.Spec.hz2]
  obtain ⟨e00, e01, e10, e11, e20, e21, e30, e31⟩ := idx_facts1 t
  have ht : t.val < 10 := lt_of_lt_of_eq t.isLt N_1
  funext j
  obtain ⟨p, q, rfl⟩ : ∃ (p : Fin 10000) (q : Fin 128), j = ix2 p q := ⟨j 0, j 1, eq_ix2 j⟩
  have hp : p.val < 10000 := p.isLt
  refine (pay1_at (iblk1 V c 0 t) (iblk1 V c 1 t) (iblk1 V c 2 t) (V c main_v57) (V c main_v44) (V c main_arg9) p q
    ⟨t.val * 10000 + p.val, by omega⟩ (fun k => ?_) ?_ (fun k => ?_)).trans ?_
  · show V c main_v57 (((cfg1.win 0).blk t).view.emb (ix2 p k)) = V c main_v57 (ix2 ⟨t.val * 10000 + p.val, by omega⟩ k)
    refine congrArg _ (funext fun ax => Fin.ext ?_)
    match ax with
    | ⟨0, _⟩ => show win1_0.index t (0 : Fin 2) * 10000 + 1 * p.val = t.val * 10000 + p.val; omega
    | ⟨1, _⟩ => show win1_0.index t (1 : Fin 2) * 128 + 1 * k.val = k.val; omega
  · show V c main_v44 (((cfg1.win 1).blk t).view.emb (ix2 p q)) = V c main_v44 (ix2 ⟨t.val * 10000 + p.val, by omega⟩ q)
    refine congrArg _ (funext fun ax => Fin.ext ?_)
    match ax with
    | ⟨0, _⟩ => show win1_1.index t (0 : Fin 2) * 10000 + 1 * p.val = t.val * 10000 + p.val; omega
    | ⟨1, _⟩ => show win1_1.index t (1 : Fin 2) * 128 + 1 * q.val = q.val; omega
  · show V c main_arg9 (((cfg1.win 2).blk t).view.emb (ix2 k q)) = V c main_arg9 (ix2 k q)
    refine congrArg _ (funext fun ax => Fin.ext ?_)
    match ax with
    | ⟨0, _⟩ => show win1_2.index t (0 : Fin 2) * 128 + 1 * k.val = k.val; omega
    | ⟨1, _⟩ => show win1_2.index t (1 : Fin 2) * 128 + 1 * q.val = q.val; omega
  · show Cert.Spec.layer (V c main_v57) (V c main_v44) (V c main_arg9) (ix2 ⟨t.val * 10000 + p.val, by omega⟩ q)
      = Cert.Spec.layer (V c main_v57) (V c main_v44) (V c main_arg9) (((cfg1.win 3).blk t).view.emb (ix2 p q))
    refine congrArg _ (funext fun ax => Fin.ext ?_)
    match ax with
    | ⟨0, _⟩ => show t.val * 10000 + p.val = win1_3.index t (0 : Fin 2) * 10000 + 1 * p.val; omega
    | ⟨1, _⟩ => show q.val = win1_3.index t (1 : Fin 2) * 128 + 1 * q.val; omega

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v58).slice (win1_3.rect t)).set ↔ _
  rw [View.set_slice_whole, Rect.mem_set_unit]
  exact Iff.rfl

/-- Every index of the output array is in some flushing point's block: row r is in block r / 10000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < cfg1.N := lt_of_lt_of_eq (by omega : (i 0).val / 10000 < 10) N_1.symm
  refine ⟨⟨(i 0).val / 10000, hN⟩, flush1_3 _, ?_⟩
  rw [mem_blk1]
  obtain ⟨e00, e01, e10, e11, e20, e21, e30, e31⟩ := idx_facts1 ⟨(i 0).val / 10000, hN⟩
  intro a
  match a with
  | ⟨0, _⟩ => show win1_3.index ⟨(i 0).val / 10000, hN⟩ (0 : Fin 2) * 10000 ≤ (i 0).val ∧ (i 0).val < win1_3.index ⟨(i 0).val / 10000, hN⟩ (0 : Fin 2) * 10000 + 10000
              rw [e30]; show (i 0).val / 10000 * 10000 ≤ (i 0).val ∧ (i 0).val < (i 0).val / 10000 * 10000 + 10000; omega
  | ⟨1, _⟩ => show win1_3.index ⟨(i 0).val / 10000, hN⟩ (1 : Fin 2) * 128 ≤ (i 1).val ∧ (i 1).val < win1_3.index ⟨(i 0).val / 10000, hN⟩ (1 : Fin 2) * 128 + 128
              rw [e31]; omega

/-- The output array after the region: the layer of the three arrays it reads. -/
theorem final1 (c : Dev nD) :
    (dat1 (F := Ideal) V c).arrAt 3 cfg1.N = Cert.Spec.layer (V c main_v57) (V c main_v44) (V c main_arg9) :=
  (dat1 (F := Ideal) V c).arrAt_eq_of_cover 3 (Cert.Spec.layer (V c main_v57) (V c main_v44) (V c main_arg9)) (fun t _ => flushed1_eq V c t) (cover1)

end Cert.KernelIdeal.Hand

end
-- ==== Proof.KernelIdeal.Layer2.lean ====
/-
  What region 2 leaves in its output array: the dense layer of the three arrays it reads, on the whole array.
  At grid point t the output's block is rows 10000·t … 10000·t + 9999; the aggregate's and the identity's blocks are
  the same rows of their arrays and the weight's block is the whole matrix, so the body's payload at (p, q) of the
  block is the layer at (10000·t + p, q): the block's matrix product is the matching rows of the whole product. The
  ten blocks tile the array.
-/
import proofs.«126255_j4956392259829_1_alg».proof.Proof.KernelIdeal.Body2
import proofs.«126255_j4956392259829_1_alg».proof.Proof.Spec
import proofs.«126255_j4956392259829_1_alg».proof.Proof.LibDotHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's payload at (p, q) of a block whose aggregate rows are rows `a` of `AGG`, whose identity entry is `X`'s
    at (a, q) and whose weight block is `W`: the layer of the whole arrays at (a, q). -/
theorem pay2_at (x0 x1 : FVec Ideal S10000x128 .f32) (x2 : FVec Ideal S128x128 .f32)
    (AGG X : FVec Ideal Cert.ReferenceIdeal.S100000x128 .f32) (W : FVec Ideal Cert.ReferenceIdeal.S128x128 .f32)
    (p : Fin 10000) (q : Fin 128) (a : Fin 100000)
    (h0 : ∀ k : Fin 128, x0 (ix2 p k) = AGG (ix2 a k)) (h1 : x1 (ix2 p q) = X (ix2 a q))
    (h2 : ∀ k : Fin 128, x2 (ix2 k q) = W (ix2 k q)) :
    k2_pay1 (F := Ideal) x0 x1 x2 (ix2 p q) = Cert.Spec.layer AGG X W (ix2 a q) := by
  have hm : matmul (F := Ideal) dot_S10000x128_S128x128_S10000x128_1_0_0_1_n_n none (shapeCast S10000x128 x0 shapeCasts_S10000x128_S10000x128) x2
        (constant S10000x128 .f32 0x00000000#32) (ix2 p q)
      = Host.dotGeneral (F := Ideal) Cert.ReferenceIdeal.dot_S100000x128_S128x128_S100000x128_1_0_0_1_n_n none AGG W (ix2 a q) := by
    rw [shapeCast_self]
    exact Cert.LibDotHost.matmul_block_eq_dotGeneral dot_S10000x128_S128x128_S10000x128_1_0_0_1_n_n.wf
      Cert.ReferenceIdeal.dot_S100000x128_S128x128_S100000x128_1_0_0_1_n_n.wf none none x0 x2 AGG W p q a q h0 h2
  unfold k2_pay1 Cert.Spec.layer
  show FloatOps.maximumf (FloatOps.addf (matmul (F := Ideal) dot_S10000x128_S128x128_S10000x128_1_0_0_1_n_n none (shapeCast S10000x128 x0 shapeCasts_S10000x128_S10000x128) x2
        (constant S10000x128 .f32 0x00000000#32) (ix2 p q)) (x1 (ix2 p q))) _ = _
  rw [hm, h1]
  rfl

/-- The printed index maps, decided over the grid: at point t the aggregate's, the identity's and the output's blocks are
    block row t, the weight's the one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is block t of the layer of the arrays the region reads. -/
theorem flushed2_eq (c : Dev nD) (t : Fin cfg2.N) :
    (dat2 (F := Ideal) V c).flushed 3 t = ((cfg2.win 3).blk t).view.read (Elt Ideal) (Cert.Spec.layer (V c main_v102) (V c main_arg5) (V c main_arg8)) := by
  show (cfg2.win 3).cut (grid2.coords t) ((dat2 (F := Ideal) V c).after 3 t) = _
  rw [after2_3]
  unfold out2_3
  rw [View.canon_unit_zero Cert.Spec.hz2]
  simp only [View.ld_unit_zero (S := S10000x128) Cert.Spec.hz2, View.ld_unit_zero (S := S128x128) Cert.Spec.hz2]
  obtain ⟨e00, e01, e10, e11, e20, e21, e30, e31⟩ := idx_facts2 t
  have ht : t.val < 10 := lt_of_lt_of_eq t.isLt N_2
  funext j
  obtain ⟨p, q, rfl⟩ : ∃ (p : Fin 10000) (q : Fin 128), j = ix2 p q := ⟨j 0, j 1, eq_ix2 j⟩
  have hp : p.val < 10000 := p.isLt
  refine (pay2_at (iblk2 V c 0 t) (iblk2 V c 1 t) (iblk2 V c 2 t) (V c main_v102) (V c main_arg5) (V c main_arg8) p q
    ⟨t.val * 10000 + p.val, by omega⟩ (fun k => ?_) ?_ (fun k => ?_)).trans ?_
  · show V c main_v102 (((cfg2.win 0).blk t).view.emb (ix2 p k)) = V c main_v102 (ix2 ⟨t.val * 10000 + p.val, by omega⟩ k)
    refine congrArg _ (funext fun ax => Fin.ext ?_)
    match ax with
    | ⟨0, _⟩ => show win2_0.index t (0 : Fin 2) * 10000 + 1 * p.val = t.val * 10000 + p.val; omega
    | ⟨1, _⟩ => show win2_0.index t (1 : Fin 2) * 128 + 1 * k.val = k.val; omega
  · show V c main_arg5 (((cfg2.win 1).blk t).view.emb (ix2 p q)) = V c main_arg5 (ix2 ⟨t.val * 10000 + p.val, by omega⟩ q)
    refine congrArg _ (funext fun ax => Fin.ext ?_)
    match ax with
    | ⟨0, _⟩ => show win2_1.index t (0 : Fin 2) * 10000 + 1 * p.val = t.val * 10000 + p.val; omega
    | ⟨1, _⟩ => show win2_1.index t (1 : Fin 2) * 128 + 1 * q.val = q.val; omega
  · show V c main_arg8 (((cfg2.win 2).blk t).view.emb (ix2 k q)) = V c main_arg8 (ix2 k q)
    refine congrArg _ (funext fun ax => Fin.ext ?_)
    match ax with
    | ⟨0, _⟩ => show win2_2.index t (0 : Fin 2) * 128 + 1 * k.val = k.val; omega
    | ⟨1, _⟩ => show win2_2.index t (1 : Fin 2) * 128 + 1 * q.val = q.val; omega
  · show Cert.Spec.layer (V c main_v102) (V c main_arg5) (V c main_arg8) (ix2 ⟨t.val * 10000 + p.val, by omega⟩ q)
      = Cert.Spec.layer (V c main_v102) (V c main_arg5) (V c main_arg8) (((cfg2.win 3).blk t).view.emb (ix2 p q))
    refine congrArg _ (funext fun ax => Fin.ext ?_)
    match ax with
    | ⟨0, _⟩ => show t.val * 10000 + p.val = win2_3.index t (0 : Fin 2) * 10000 + 1 * p.val; omega
    | ⟨1, _⟩ => show q.val = win2_3.index t (1 : Fin 2) * 128 + 1 * q.val; omega

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v103).slice (win2_3.rect t)).set ↔ _
  rw [View.set_slice_whole, Rect.mem_set_unit]
  exact Iff.rfl

/-- Every index of the output array is in some flushing point's block: row r is in block r / 10000. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 10000 < cfg2.N := lt_of_lt_of_eq (by omega : (i 0).val / 10000 < 10) N_2.symm
  refine ⟨⟨(i 0).val / 10000, hN⟩, flush2_3 _, ?_⟩
  rw [mem_blk2]
  obtain ⟨e00, e01, e10, e11, e20, e21, e30, e31⟩ := idx_facts2 ⟨(i 0).val / 10000, hN⟩
  intro a
  match a with
  | ⟨0, _⟩ => show win2_3.index ⟨(i 0).val / 10000, hN⟩ (0 : Fin 2) * 10000 ≤ (i 0).val ∧ (i 0).val < win2_3.index ⟨(i 0).val / 10000, hN⟩ (0 : Fin 2) * 10000 + 10000
              rw [e30]; show (i 0).val / 10000 * 10000 ≤ (i 0).val ∧ (i 0).val < (i 0).val / 10000 * 10000 + 10000; omega
  | ⟨1, _⟩ => show win2_3.index ⟨(i 0).val / 10000, hN⟩ (1 : Fin 2) * 128 ≤ (i 1).val ∧ (i 1).val < win2_3.index ⟨(i 0).val / 10000, hN⟩ (1 : Fin 2) * 128 + 128
              rw [e31]; omega

/-- The output array after the region: the layer of the three arrays it reads. -/
theorem final2 (c : Dev nD) :
    (dat2 (F := Ideal) V c).arrAt 3 cfg2.N = Cert.Spec.layer (V c main_v102) (V c main_arg5) (V c main_arg8) :=
  (dat2 (F := Ideal) V c).arrAt_eq_of_cover 3 (Cert.Spec.layer (V c main_v102) (V c main_arg5) (V c main_arg8)) (fun t _ => flushed2_eq V c t) (cover2)

end Cert.KernelIdeal.Hand

end
-- ==== Proof.KernelIdeal.Layer3.lean ====
/-
  What region 3 leaves in its output array: the dense layer of the three arrays it reads, on the whole array.
  At grid point t the output's block is rows 10000·t … 10000·t + 9999; the aggregate's and the identity's blocks are
  the same rows of their arrays and the weight's block is the whole matrix, so the body's payload at (p, q) of the
  block is the layer at (10000·t + p, q): the block's matrix product is the matching rows of the whole product. The
  ten blocks tile the array.
-/
import proofs.«126255_j4956392259829_1_alg».proof.Proof.KernelIdeal.Body3
import proofs.«126255_j4956392259829_1_alg».proof.Proof.Spec
import proofs.«126255_j4956392259829_1_alg».proof.Proof.LibDotHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The body's payload at (p, q) of a block whose aggregate rows are rows `a` of `AGG`, whose identity entry is `X`'s
    at (a, q) and whose weight block is `W`: the layer of the whole arrays at (a, q). -/
theorem pay3_at (x0 x1 : FVec Ideal S10000x128 .f32) (x2 : FVec Ideal S128x128 .f32)
    (AGG X : FVec Ideal Cert.ReferenceIdeal.S100000x128 .f32) (W : FVec Ideal Cert.ReferenceIdeal.S128x128 .f32)
    (p : Fin 10000) (q : Fin 128) (a : Fin 100000)
    (h0 : ∀ k : Fin 128, x0 (ix2 p k) = AGG (ix2 a k)) (h1 : x1 (ix2 p q) = X (ix2 a q))
    (h2 : ∀ k : Fin 128, x2 (ix2 k q) = W (ix2 k q)) :
    k3_pay1 (F := Ideal) x0 x1 x2 (ix2 p q) = Cert.Spec.layer AGG X W (ix2 a q) := by
  have hm : matmul (F := Ideal) dot_S10000x128_S128x128_S10000x128_1_0_0_1_n_n none (shapeCast S10000x128 x0 shapeCasts_S10000x128_S10000x128) x2
        (constant S10000x128 .f32 0x00000000#32) (ix2 p q)
      = Host.dotGeneral (F := Ideal) Cert.ReferenceIdeal.dot_S100000x128_S128x128_S100000x128_1_0_0_1_n_n none AGG W (ix2 a q) := by
    rw [shapeCast_self]
    exact Cert.LibDotHost.matmul_block_eq_dotGeneral dot_S10000x128_S128x128_S10000x128_1_0_0_1_n_n.wf
      Cert.ReferenceIdeal.dot_S100000x128_S128x128_S100000x128_1_0_0_1_n_n.wf none none x0 x2 AGG W p q a q h0 h2
  unfold k3_pay1 Cert.Spec.layer
  show FloatOps.maximumf (FloatOps.addf (matmul (F := Ideal) dot_S10000x128_S128x128_S10000x128_1_0_0_1_n_n none (shapeCast S10000x128 x0 shapeCasts_S10000x128_S10000x128) x2
        (constant S10000x128 .f32 0x00000000#32) (ix2 p q)) (shapeCast S10000x128 x1 shapeCasts_S10000x128_S10000x128 (ix2 p q))) _ = _
  rw [hm, shapeCast_self, h1]
  rfl

/-- The printed index maps, decided over the grid: at point t the aggregate's, the identity's and the output's blocks are
    block row t, the weight's the one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the layer of the arrays the region reads. -/
theorem flushed3_eq (c : Dev nD) (t : Fin cfg3.N) :
    (dat3 (F := Ideal) V c).flushed 3 t = ((cfg3.win 3).blk t).view.read (Elt Ideal) (Cert.Spec.layer (V c main_v116) (V c main_v103) (V c main_arg9)) := by
  show (cfg3.win 3).cut (grid3.coords t) ((dat3 (F := Ideal) V c).after 3 t) = _
  rw [after3_3]
  unfold out3_3
  rw [View.canon_unit_zero Cert.Spec.hz2]
  simp only [View.ld_unit_zero (S := S10000x128) Cert.Spec.hz2, View.ld_unit_zero (S := S128x128) Cert.Spec.hz2]
  obtain ⟨e00, e01, e10, e11, e20, e21, e30, e31⟩ := idx_facts3 t
  have ht : t.val < 10 := lt_of_lt_of_eq t.isLt N_3
  funext j
  obtain ⟨p, q, rfl⟩ : ∃ (p : Fin 10000) (q : Fin 128), j = ix2 p q := ⟨j 0, j 1, eq_ix2 j⟩
  have hp : p.val < 10000 := p.isLt
  refine (pay3_at (iblk3 V c 0 t) (iblk3 V c 1 t) (iblk3 V c 2 t) (V c main_v116) (V c main_v103) (V c main_arg9) p q
    ⟨t.val * 10000 + p.val, by omega⟩ (fun k => ?_) ?_ (fun k => ?_)).trans ?_
  · show V c main_v116 (((cfg3.win 0).blk t).view.emb (ix2 p k)) = V c main_v116 (ix2 ⟨t.val * 10000 + p.val, by omega⟩ k)
    refine congrArg _ (funext fun ax => Fin.ext ?_)
    match ax with
    | ⟨0, _⟩ => show win3_0.index t (0 : Fin 2) * 10000 + 1 * p.val = t.val * 10000 + p.val; omega
    | ⟨1, _⟩ => show win3_0.index t (1 : Fin 2) * 128 + 1 * k.val = k.val; omega
  · show V c main_v103 (((cfg3.win 1).blk t).view.emb (ix2 p q)) = V c main_v103 (ix2 ⟨t.val * 10000 + p.val, by omega⟩ q)
    refine congrArg _ (funext fun ax => Fin.ext ?_)
    match ax with
    | ⟨0, _⟩ => show win3_1.index t (0 : Fin 2) * 10000 + 1 * p.val = t.val * 10000 + p.val; omega
    | ⟨1, _⟩ => show win3_1.index t (1 : Fin 2) * 128 + 1 * q.val = q.val; omega
  · show V c main_arg9 (((cfg3.win 2).blk t).view.emb (ix2 k q)) = V c main_arg9 (ix2 k q)
    refine congrArg _ (funext fun ax => Fin.ext ?_)
    match ax with
    | ⟨0, _⟩ => show win3_2.index t (0 : Fin 2) * 128 + 1 * k.val = k.val; omega
    | ⟨1, _⟩ => show win3_2.index t (1 : Fin 2) * 128 + 1 * q.val = q.val; omega
  · show Cert.Spec.layer (V c main_v116) (V c main_v103) (V c main_arg9) (ix2 ⟨t.val * 10000 + p.val, by omega⟩ q)
      = Cert.Spec.layer (V c main_v116) (V c main_v103) (V c main_arg9) (((cfg3.win 3).blk t).view.emb (ix2 p q))
    refine congrArg _ (funext fun ax => Fin.ext ?_)
    match ax with
    | ⟨0, _⟩ => show t.val * 10000 + p.val = win3_3.index t (0 : Fin 2) * 10000 + 1 * p.val; omega
    | ⟨1, _⟩ => show q.val = win3_3.index t (1 : Fin 2) * 128 + 1 * q.val; omega

/-- An index of the output array is in point t's block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v117).slice (win3_3.rect t)).set ↔ _
  rw [View.set_slice_whole, Rect.mem_set_unit]
  exact Iff.rfl

/-- Every index of the output array is in some flushing point's block: row r is in block r / 10000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 10000 < cfg3.N := lt_of_lt_of_eq (by omega : (i 0).val / 10000 < 10) N_3.symm
  refine ⟨⟨(i 0).val / 10000, hN⟩, flush3_3 _, ?_⟩
  rw [mem_blk3]
  obtain ⟨e00, e01, e10, e11, e20, e21, e30, e31⟩ := idx_facts3 ⟨(i 0).val / 10000, hN⟩
  intro a
  match a with
  | ⟨0, _⟩ => show win3_3.index ⟨(i 0).val / 10000, hN⟩ (0 : Fin 2) * 10000 ≤ (i 0).val ∧ (i 0).val < win3_3.index ⟨(i 0).val / 10000, hN⟩ (0 : Fin 2) * 10000 + 10000
              rw [e30]; show (i 0).val / 10000 * 10000 ≤ (i 0).val ∧ (i 0).val < (i 0).val / 10000 * 10000 + 10000; omega
  | ⟨1, _⟩ => show win3_3.index ⟨(i 0).val / 10000, hN⟩ (1 : Fin 2) * 128 ≤ (i 1).val ∧ (i 1).val < win3_3.index ⟨(i 0).val / 10000, hN⟩ (1 : Fin 2) * 128 + 128
              rw [e31]; omega

/-- The output array after the region: the layer of the three arrays it reads. -/
theorem final3 (c : Dev nD) :
    (dat3 (F := Ideal) V c).arrAt 3 cfg3.N = Cert.Spec.layer (V c main_v116) (V c main_v103) (V c main_arg9) :=
  (dat3 (F := Ideal) V c).arrAt_eq_of_cover 3 (Cert.Spec.layer (V c main_v116) (V c main_v103) (V c main_arg9)) (fun t _ => flushed3_eq V c t) (cover3)

end Cert.KernelIdeal.Hand

end
-- ==== Proof.KernelIdeal.Values.lean ====
/-
  What the kernel's program leaves in its four results, at the ideal values: the specification's functions of the
  launch contents of its arguments. Each host stretch is read once (its operations applied to the buffers it is
  entered with), each region's output is the dense layer of the three arrays it reads, and a buffer that the
  later items neither write nor output is carried unchanged to where it is read.
-/
import proofs.«126255_j4956392259829_1_alg».proof.Proof.KernelIdeal.Run
import proofs.«126255_j4956392259829_1_alg».proof.Proof.KernelIdeal.Layer0
import proofs.«126255_j4956392259829_1_alg».proof.Proof.KernelIdeal.Layer1
import proofs.«126255_j4956392259829_1_alg».proof.Proof.KernelIdeal.Layer2
import proofs.«126255_j4956392259829_1_alg».proof.Proof.KernelIdeal.Layer3
import proofs.«126255_j4956392259829_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

/-! ## An argument array is as launched at every boundary -/

theorem arg1 (r : Ref sig .tc) (h0 : r ∉ hostOps0_W) : W1 m c r = m ((c.tc : Thread nD τ).loc r) := (W1_keep m c r h0).trans rfl
theorem arg2 (r : Ref sig .tc) (h0 : r ∉ hostOps0_W) (e0 : r ≠ main_v44) : W2 m c r = m ((c.tc : Thread nD τ).loc r) :=
  (W2_keep m c r e0).trans (arg1 m c r h0)
theorem arg3 (r : Ref sig .tc) (h0 : r ∉ hostOps0_W) (e0 : r ≠ main_v44) (h1 : r ∉ hostOps1_W) : W3 m c r = m ((c.tc : Thread nD τ).loc r) :=
  (W3_keep m c r h1).trans (arg2 m c r h0 e0)
theorem arg4 (r : Ref sig .tc) (h0 : r ∉ hostOps0_W) (e0 : r ≠ main_v44) (h1 : r ∉ hostOps1_W) (e1 : r ≠ main_v58) : W4 m c r = m ((c.tc : Thread nD τ).loc r) :=
  (W4_keep m c r e1).trans (arg3 m c r h0 e0 h1)
theorem arg5 (r : Ref sig .tc) (h0 : r ∉ hostOps0_W) (e0 : r ≠ main_v44) (h1 : r ∉ hostOps1_W) (e1 : r ≠ main_v58) (h2 : r ∉ hostOps2_W) : W5 m c r = m ((c.tc : Thread nD τ).loc r) :=
  (W5_keep m c r h2).trans (arg4 m c r h0 e0 h1 e1)
theorem arg6 (r : Ref sig .tc) (h0 : r ∉ hostOps0_W) (e0 : r ≠ main_v44) (h1 : r ∉ hostOps1_W) (e1 : r ≠ main_v58) (h2 : r ∉ hostOps2_W) (e2 : r ≠ main_v103) : W6 m c r = m ((c.tc : Thread nD τ).loc r) :=
  (W6_keep m c r e2).trans (arg5 m c r h0 e0 h1 e1 h2)
theorem arg7 (r : Ref sig .tc) (h0 : r ∉ hostOps0_W) (e0 : r ≠ main_v44) (h1 : r ∉ hostOps1_W) (e1 : r ≠ main_v58) (h2 : r ∉ hostOps2_W) (e2 : r ≠ main_v103) (h3 : r ∉ hostOps3_W) : W7 m c r = m ((c.tc : Thread nD τ).loc r) :=
  (W7_keep m c r h3).trans (arg6 m c r h0 e0 h1 e1 h2 e2)
theorem arg8 (r : Ref sig .tc) (h0 : r ∉ hostOps0_W) (e0 : r ≠ main_v44) (h1 : r ∉ hostOps1_W) (e1 : r ≠ main_v58) (h2 : r ∉ hostOps2_W) (e2 : r ≠ main_v103) (h3 : r ∉ hostOps3_W) (e3 : r ≠ main_v117) : W8 m c r = m ((c.tc : Thread nD τ).loc r) :=
  (W8_keep m c r e3).trans (arg7 m c r h0 e0 h1 e1 h2 e2 h3)

/-! ## The source graph -/

set_option maxHeartbeats 8000000 in
/-- The first stretch: the directed edges, their weights and the first aggregation, of the launch contents. -/
theorem src_sr : W1 m c main_v5 = Cert.Spec.srcOf (m ((c.tc : Thread nD τ).loc main_arg6)) := by
  show StableHlo.after hostOps0 (W0 m c) (Proc.devRef .tc main_v5) = _; after_results_simp <;> rfl
set_option maxHeartbeats 8000000 in
theorem dst_sr : W1 m c main_v10 = Cert.Spec.dstOf (m ((c.tc : Thread nD τ).loc main_arg6)) := by
  show StableHlo.after hostOps0 (W0 m c) (Proc.devRef .tc main_v10) = _; after_results_simp <;> rfl
set_option maxHeartbeats 8000000 in
theorem nrm_sr : W1 m c main_v30 = Cert.Spec.normOf (Cert.Spec.srcOf (m ((c.tc : Thread nD τ).loc main_arg6))) (Cert.Spec.dstOf (m ((c.tc : Thread nD τ).loc main_arg6))) := by
  show StableHlo.after hostOps0 (W0 m c) (Proc.devRef .tc main_v30) = _; after_results_simp <;> rfl
set_option maxHeartbeats 8000000 in
theorem agg1_sr : W1 m c main_v43 = Cert.Spec.aggOf (m ((c.tc : Thread nD τ).loc main_arg4)) (Cert.Spec.srcOf (m ((c.tc : Thread nD τ).loc main_arg6))) (Cert.Spec.dstOf (m ((c.tc : Thread nD τ).loc main_arg6)))
    (Cert.Spec.normOf (Cert.Spec.srcOf (m ((c.tc : Thread nD τ).loc main_arg6))) (Cert.Spec.dstOf (m ((c.tc : Thread nD τ).loc main_arg6)))) := by
  show StableHlo.after hostOps0 (W0 m c) (Proc.devRef .tc main_v43) = _; after_results_simp <;> rfl

/-- Region 0's output: the first layer's output. -/
theorem hid1_sr : W2 m c main_v44 = Cert.Spec.hid1 (m ((c.tc : Thread nD τ).loc main_arg4)) (m ((c.tc : Thread nD τ).loc main_arg6)) (m ((c.tc : Thread nD τ).loc main_arg8)) := by
  refine ((W2_out m c).trans (final0 (T1 m) c)).trans ?_
  show Cert.Spec.layer (W1 m c main_v43) (W1 m c main_arg4) (W1 m c main_arg8) = _
  rw [agg1_sr m c, arg1 m c main_arg4 (by decide), arg1 m c main_arg8 (by decide)]
  rfl

/-- The second stretch: the second aggregation, of the first layer's output and the first stretch's edges and weights. -/
theorem agg2_sr0 : W3 m c main_v57 = Cert.Spec.aggOf (W2 m c main_v44) (W2 m c main_v5) (W2 m c main_v10) (W2 m c main_v30) := by
  show StableHlo.after hostOps1 (W2 m c) (Proc.devRef .tc main_v57) = _; after_results; rfl
theorem agg2_sr : W3 m c main_v57 = Cert.Spec.aggOf (Cert.Spec.hid1 (m ((c.tc : Thread nD τ).loc main_arg4)) (m ((c.tc : Thread nD τ).loc main_arg6)) (m ((c.tc : Thread nD τ).loc main_arg8))) (Cert.Spec.srcOf (m ((c.tc : Thread nD τ).loc main_arg6))) (Cert.Spec.dstOf (m ((c.tc : Thread nD τ).loc main_arg6)))
    (Cert.Spec.normOf (Cert.Spec.srcOf (m ((c.tc : Thread nD τ).loc main_arg6))) (Cert.Spec.dstOf (m ((c.tc : Thread nD τ).loc main_arg6)))) := by
  rw [agg2_sr0 m c, hid1_sr m c, W2_keep m c main_v5 (by decide), W2_keep m c main_v10 (by decide), W2_keep m c main_v30 (by decide),
    src_sr m c, dst_sr m c, nrm_sr m c]

/-- Region 1's output: the source graph's node table. -/
theorem out_sr4 : W4 m c main_v58 = Cert.Spec.gcn (m ((c.tc : Thread nD τ).loc main_arg4)) (m ((c.tc : Thread nD τ).loc main_arg6)) (m ((c.tc : Thread nD τ).loc main_arg8)) (m ((c.tc : Thread nD τ).loc main_arg9)) := by
  refine ((W4_out m c).trans (final1 (T3 m) c)).trans ?_
  show Cert.Spec.layer (W3 m c main_v57) (W3 m c main_v44) (W3 m c main_arg9) = _
  rw [agg2_sr m c, W3_keep m c main_v44 (by decide), hid1_sr m c, arg3 m c main_arg9 (by decide) (by decide) (by decide)]
  rfl

/-! ## The target graph -/

set_option maxHeartbeats 8000000 in
theorem src_tg0 : W5 m c main_v64 = Cert.Spec.srcOf (W4 m c main_arg7) := by
  show StableHlo.after hostOps2 (W4 m c) (Proc.devRef .tc main_v64) = _; after_results_simp <;> rfl
set_option maxHeartbeats 8000000 in
theorem dst_tg0 : W5 m c main_v69 = Cert.Spec.dstOf (W4 m c main_arg7) := by
  show StableHlo.after hostOps2 (W4 m c) (Proc.devRef .tc main_v69) = _; after_results_simp <;> rfl
set_option maxHeartbeats 8000000 in
theorem nrm_tg0 : W5 m c main_v89 = Cert.Spec.normOf (Cert.Spec.srcOf (W4 m c main_arg7)) (Cert.Spec.dstOf (W4 m c main_arg7)) := by
  show StableHlo.after hostOps2 (W4 m c) (Proc.devRef .tc main_v89) = _; after_results_simp <;> rfl
set_option maxHeartbeats 8000000 in
theorem agg1_tg0 : W5 m c main_v102 = Cert.Spec.aggOf (W4 m c main_arg5) (Cert.Spec.srcOf (W4 m c main_arg7)) (Cert.Spec.dstOf (W4 m c main_arg7))
    (Cert.Spec.normOf (Cert.Spec.srcOf (W4 m c main_arg7)) (Cert.Spec.dstOf (W4 m c main_arg7))) := by
  show StableHlo.after hostOps2 (W4 m c) (Proc.devRef .tc main_v102) = _; after_results_simp <;> rfl

theorem e7 : W4 m c main_arg7 = (m ((c.tc : Thread nD τ).loc main_arg7)) := arg4 m c main_arg7 (by decide) (by decide) (by decide) (by decide)
theorem e5 : W4 m c main_arg5 = (m ((c.tc : Thread nD τ).loc main_arg5)) := arg4 m c main_arg5 (by decide) (by decide) (by decide) (by decide)

/-- Region 2's output: the target graph's first layer. -/
theorem hid1_tg : W6 m c main_v103 = Cert.Spec.hid1 (m ((c.tc : Thread nD τ).loc main_arg5)) (m ((c.tc : Thread nD τ).loc main_arg7)) (m ((c.tc : Thread nD τ).loc main_arg8)) := by
  refine ((W6_out m c).trans (final2 (T5 m) c)).trans ?_
  show Cert.Spec.layer (W5 m c main_v102) (W5 m c main_arg5) (W5 m c main_arg8) = _
  rw [agg1_tg0 m c, e7 m c, e5 m c, arg5 m c main_arg5 (by decide) (by decide) (by decide) (by decide) (by decide),
    arg5 m c main_arg8 (by decide) (by decide) (by decide) (by decide) (by decide)]
  rfl

theorem agg2_tg0 : W7 m c main_v116 = Cert.Spec.aggOf (W6 m c main_v103) (W6 m c main_v64) (W6 m c main_v69) (W6 m c main_v89) := by
  show StableHlo.after hostOps3 (W6 m c) (Proc.devRef .tc main_v116) = _; after_results; rfl
theorem agg2_tg : W7 m c main_v116 = Cert.Spec.aggOf (Cert.Spec.hid1 (m ((c.tc : Thread nD τ).loc main_arg5)) (m ((c.tc : Thread nD τ).loc main_arg7)) (m ((c.tc : Thread nD τ).loc main_arg8))) (Cert.Spec.srcOf (m ((c.tc : Thread nD τ).loc main_arg7))) (Cert.Spec.dstOf (m ((c.tc : Thread nD τ).loc main_arg7)))
    (Cert.Spec.normOf (Cert.Spec.srcOf (m ((c.tc : Thread nD τ).loc main_arg7))) (Cert.Spec.dstOf (m ((c.tc : Thread nD τ).loc main_arg7)))) := by
  rw [agg2_tg0 m c, hid1_tg m c, W6_keep m c main_v64 (by decide), W6_keep m c main_v69 (by decide), W6_keep m c main_v89 (by decide),
    src_tg0 m c, dst_tg0 m c, nrm_tg0 m c, e7 m c]

/-- Region 3's output: the target graph's node table. -/
theorem out_tg8 : W8 m c main_v117 = Cert.Spec.gcn (m ((c.tc : Thread nD τ).loc main_arg5)) (m ((c.tc : Thread nD τ).loc main_arg7)) (m ((c.tc : Thread nD τ).loc main_arg8)) (m ((c.tc : Thread nD τ).loc main_arg9)) := by
  refine ((W8_out m c).trans (final3 (T7 m) c)).trans ?_
  show Cert.Spec.layer (W7 m c main_v116) (W7 m c main_v103) (W7 m c main_arg9) = _
  rw [agg2_tg m c, W7_keep m c main_v103 (by decide), hid1_tg m c,
    arg7 m c main_arg9 (by decide) (by decide) (by decide) (by decide) (by decide) (by decide) (by decide)]
  rfl

/-! ## The four results -/

/-- The source graph's node table is untouched after region 1. -/
theorem out_sr8 : W8 m c main_v58 = Cert.Spec.gcn (m ((c.tc : Thread nD τ).loc main_arg4)) (m ((c.tc : Thread nD τ).loc main_arg6)) (m ((c.tc : Thread nD τ).loc main_arg8)) (m ((c.tc : Thread nD τ).loc main_arg9)) :=
  (W8_keep m c main_v58 (by decide)).trans <| (W7_keep m c main_v58 (by decide)).trans <| (W6_keep m c main_v58 (by decide)).trans <|
    (W5_keep m c main_v58 (by decide)).trans (out_sr4 m c)

theorem res_sr : W9 m c main_v58 = Cert.Spec.gcn (m ((c.tc : Thread nD τ).loc main_arg4)) (m ((c.tc : Thread nD τ).loc main_arg6)) (m ((c.tc : Thread nD τ).loc main_arg8)) (m ((c.tc : Thread nD τ).loc main_arg9)) :=
  (W9_keep m c main_v58 (by decide)).trans (out_sr8 m c)
theorem res_tg : W9 m c main_v117 = Cert.Spec.gcn (m ((c.tc : Thread nD τ).loc main_arg5)) (m ((c.tc : Thread nD τ).loc main_arg7)) (m ((c.tc : Thread nD τ).loc main_arg8)) (m ((c.tc : Thread nD τ).loc main_arg9)) :=
  (W9_keep m c main_v117 (by decide)).trans (out_tg8 m c)

theorem seed_sr0 : W9 m c main_v124 = Cert.Spec.seedOf (W8 m c main_v58) (W8 m c main_arg0) := by
  show StableHlo.after hostOps4 (W8 m c) (Proc.devRef .tc main_v124) = _; after_results; rfl
theorem seed_tg0 : W9 m c main_v131 = Cert.Spec.seedOf (W8 m c main_v117) (W8 m c main_arg1) := by
  show StableHlo.after hostOps4 (W8 m c) (Proc.devRef .tc main_v131) = _; after_results; rfl

theorem res_seed_sr : W9 m c main_v124 = Cert.Spec.seedOf (Cert.Spec.gcn (m ((c.tc : Thread nD τ).loc main_arg4)) (m ((c.tc : Thread nD τ).loc main_arg6)) (m ((c.tc : Thread nD τ).loc main_arg8)) (m ((c.tc : Thread nD τ).loc main_arg9))) (m ((c.tc : Thread nD τ).loc main_arg0)) := by
  rw [seed_sr0 m c, out_sr8 m c, arg8 m c main_arg0 (by decide) (by decide) (by decide) (by decide) (by decide) (by decide) (by decide) (by decide)]
theorem res_seed_tg : W9 m c main_v131 = Cert.Spec.seedOf (Cert.Spec.gcn (m ((c.tc : Thread nD τ).loc main_arg5)) (m ((c.tc : Thread nD τ).loc main_arg7)) (m ((c.tc : Thread nD τ).loc main_arg8)) (m ((c.tc : Thread nD τ).loc main_arg9))) (m ((c.tc : Thread nD τ).loc main_arg1)) := by
  rw [seed_tg0 m c, out_tg8 m c, arg8 m c main_arg1 (by decide) (by decide) (by decide) (by decide) (by decide) (by decide) (by decide) (by decide)]

end Cert.KernelIdeal.Hand

end
-- ==== Proof.RefIs.lean ====
/-
  The reference computes the specification: each of its four results, as the composed term of its operations over the
  launch contents of its arguments, is the network (and its seed rows) of those arrays. Both sides are the same tree of
  the same operations; the named functions only fold it.
-/
import proofs.«126255_j4956392259829_1_alg».proof.Proof.Gen.ReferenceIdeal.Run
import proofs.«126255_j4956392259829_1_alg».proof.Proof.Spec

set_option maxRecDepth 16384

noncomputable section

namespace Cert.RefIs

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- The source graph's node table. -/
theorem out2 : res_main_v62 (F := Ideal) m c
    = Cert.Spec.gcn (m ((c.tc : Thread nD τ).loc main_arg4)) (m ((c.tc : Thread nD τ).loc main_arg6))
        (m ((c.tc : Thread nD τ).loc main_arg8)) (m ((c.tc : Thread nD τ).loc main_arg9)) := by
  unfold res_main_v62; rfl

/-- The target graph's node table. -/
theorem out3 : res_main_v125 (F := Ideal) m c
    = Cert.Spec.gcn (m ((c.tc : Thread nD τ).loc main_arg5)) (m ((c.tc : Thread nD τ).loc main_arg7))
        (m ((c.tc : Thread nD τ).loc main_arg8)) (m ((c.tc : Thread nD τ).loc main_arg9)) := by
  unfold res_main_v125; rfl

/-- The source graph's seed rows. -/
theorem out0 : res_main_v132 (F := Ideal) m c
    = Cert.Spec.seedOf (Cert.Spec.gcn (m ((c.tc : Thread nD τ).loc main_arg4)) (m ((c.tc : Thread nD τ).loc main_arg6))
        (m ((c.tc : Thread nD τ).loc main_arg8)) (m ((c.tc : Thread nD τ).loc main_arg9))) (m ((c.tc : Thread nD τ).loc main_arg0)) := by
  unfold res_main_v132; rfl

/-- The target graph's seed rows. -/
theorem out1 : res_main_v139 (F := Ideal) m c
    = Cert.Spec.seedOf (Cert.Spec.gcn (m ((c.tc : Thread nD τ).loc main_arg5)) (m ((c.tc : Thread nD τ).loc main_arg7))
        (m ((c.tc : Thread nD τ).loc main_arg8)) (m ((c.tc : Thread nD τ).loc main_arg9))) (m ((c.tc : Thread nD τ).loc main_arg1)) := by
  unfold res_main_v139; rfl

end Cert.RefIs

end
-- ==== Proof.lean ====
/-
  The certificate of a two-layer residual graph convolution on two graphs (100000 nodes, 500000 edges, 128 features
  each) followed by a gather of 10000 seed rows per graph.

  Both programs build, per graph, the symmetric-normalised adjacency from the edge list (both orientations of every edge
  and a self loop at every node; an edge's weight is rsqrt(deg src · deg dst)), aggregate agg = Σ over edges into a node of
  weight · x[src], and apply the dense step max(agg · W + x, 0) twice. They differ in one thing: the kernel's program
  computes each dense step in a launched kernel, ten row blocks of 10000 rows, each block the product of the block's
  rows of agg with the whole 128 × 128 weight matrix plus the same rows of x, clipped at zero; the reference applies one
  matrix product to the whole array. A row block of the product depends only on that block's rows of agg, so the ten
  blocks are the ten row blocks of the whole product and the launched kernel leaves exactly the reference's dense step in
  its output array. Every other operation is the same operation on the same values, so the four results agree, over the
  extended reals, with no appeal to finiteness: no law beyond "a sum over the contracted axis is the same sum" is used.

  The frames: each program terminates without a fault and ends with its argument arrays as launched. For the two
  kernel programs this is read off one run of the whole program, five host stretches around four launches, which ends
  with every buffer at a fold of the launch memory; no stretch writes an argument and a launch writes only its output.
  For the reference it is its run with the results dropped. The kernel's idealization rewrote nothing, so there is
  nothing to preserve.
-/
import proofs.«126255_j4956392259829_1_alg».proof.Defs
import proofs.«126255_j4956392259829_1_alg».proof.Proof.Gen.Kernel
import proofs.«126255_j4956392259829_1_alg».proof.Proof.Gen.KernelIdeal
import proofs.«126255_j4956392259829_1_alg».proof.Proof.Gen.ReferenceIdeal
import proofs.«126255_j4956392259829_1_alg».proof.Proof.Gen.Pre_finite_inputs
import proofs.«126255_j4956392259829_1_alg».proof.Proof.Gen.ReferenceIdeal.Run
import proofs.«126255_j4956392259829_1_alg».proof.Proof.Kernel.Run
import proofs.«126255_j4956392259829_1_alg».proof.Proof.KernelIdeal.Run
import proofs.«126255_j4956392259829_1_alg».proof.Proof.KernelIdeal.Values
import proofs.«126255_j4956392259829_1_alg».proof.Proof.RefIs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories agreeing on the arguments both idealized programs end with the seed rows and the node tables of the
    network of the argument arrays: the kernel's program by its run and the values read off it, the reference by its
    run, whose composed terms are those functions. -/
theorem algebraic : Cert.algebraic_KernelIdeal_ReferenceIdeal := by
  intro m ρ m' ρ' _ hagree
  refine ⟨fun c => Cert.Spec.seedOf (Cert.Spec.gcn (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg0)),
    fun c => Cert.Spec.seedOf (Cert.Spec.gcn (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)),
    fun c => Cert.Spec.gcn (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.Spec.gcn (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_all m ρ)
    exact ⟨(h c Cert.KernelIdeal.main_v124 (by decide)).trans (Cert.KernelIdeal.Hand.res_seed_sr m c),
      (h c Cert.KernelIdeal.main_v131 (by decide)).trans (Cert.KernelIdeal.Hand.res_seed_tg m c),
      (h c Cert.KernelIdeal.main_v58 (by decide)).trans (Cert.KernelIdeal.Hand.res_sr m c),
      (h c Cert.KernelIdeal.main_v117 (by decide)).trans (Cert.KernelIdeal.Hand.res_tg m c),
      (h c Cert.KernelIdeal.main_arg0 (by decide)).trans (Cert.KernelIdeal.Hand.W9_untouched m c Cert.KernelIdeal.main_arg0 (by decide) (by decide) (by decide) (by decide) (by decide) (by decide) (by decide) (by decide) (by decide)),
      (h c Cert.KernelIdeal.main_arg1 (by decide)).trans (Cert.KernelIdeal.Hand.W9_untouched m c Cert.KernelIdeal.main_arg1 (by decide) (by decide) (by decide) (by decide) (by decide) (by decide) (by decide) (by decide) (by decide)),
      (h c Cert.KernelIdeal.main_arg2 (by decide)).trans (Cert.KernelIdeal.Hand.W9_untouched m c Cert.KernelIdeal.main_arg2 (by decide) (by decide) (by decide) (by decide) (by decide) (by decide) (by decide) (by decide) (by decide)),
      (h c Cert.KernelIdeal.main_arg3 (by decide)).trans (Cert.KernelIdeal.Hand.W9_untouched m c Cert.KernelIdeal.main_arg3 (by decide) (by decide) (by decide) (by decide) (by decide) (by decide) (by decide) (by decide) (by decide)),
      (h c Cert.KernelIdeal.main_arg4 (by decide)).trans (Cert.KernelIdeal.Hand.W9_untouched m c Cert.KernelIdeal.main_arg4 (by decide) (by decide) (by decide) (by decide) (by decide) (by decide) (by decide) (by decide) (by decide)),
      (h c Cert.KernelIdeal.main_arg5 (by decide)).trans (Cert.KernelIdeal.Hand.W9_untouched m c Cert.KernelIdeal.main_arg5 (by decide) (by decide) (by decide) (by decide) (by decide) (by decide) (by decide) (by decide) (by decide)),
      (h c Cert.KernelIdeal.main_arg6 (by decide)).trans (Cert.KernelIdeal.Hand.W9_untouched m c Cert.KernelIdeal.main_arg6 (by decide) (by decide) (by decide) (by decide) (by decide) (by decide) (by decide) (by decide) (by decide)),
      (h c Cert.KernelIdeal.main_arg7 (by decide)).trans (Cert.KernelIdeal.Hand.W9_untouched m c Cert.KernelIdeal.main_arg7 (by decide) (by decide) (by decide) (by decide) (by decide) (by decide) (by decide) (by decide) (by decide)),
      (h c Cert.KernelIdeal.main_arg8 (by decide)).trans (Cert.KernelIdeal.Hand.W9_untouched m c Cert.KernelIdeal.main_arg8 (by decide) (by decide) (by decide) (by decide) (by decide) (by decide) (by decide) (by decide) (by decide)),
      (h c Cert.KernelIdeal.main_arg9 (by decide)).trans (Cert.KernelIdeal.Hand.W9_untouched m c Cert.KernelIdeal.main_arg9 (by decide) (by decide) (by decide) (by decide) (by decide) (by decide) (by decide) (by decide) (by decide))⟩
  · refine (θ_run Cert.ReferenceIdeal.defs _ _).mono (fun r h c => ?_) (Cert.ReferenceIdeal.Value.run (F := Ideal) m' ρ')
    obtain ⟨h0, h1, h2, h3, hargs⟩ := h c
    obtain ⟨g0, g1, g2, g3, g4, g5, g6, g7, g8, g9⟩ := hagree c
    refine ⟨h0.trans ((Cert.RefIs.out0 m' c).trans ?_), h1.trans ((Cert.RefIs.out1 m' c).trans ?_),
      h2.trans ((Cert.RefIs.out2 m' c).trans ?_), h3.trans ((Cert.RefIs.out3 m' c).trans ?_), hargs⟩
    · rw [g0, g4, g6, g8, g9]
    · rw [g1, g5, g7, g8, g9]
    · rw [g4, g6, g8, g9]
    · rw [g5, g7, g8, g9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
